-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_cst_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_cst_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_cst_0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512x1x1 : Shape := ⟨4, ![8192, 512, 1, 1]⟩
abbrev S8192 : Shape := ⟨1, ![8192]⟩
abbrev S512x512 : Shape := ⟨2, ![512, 512]⟩
abbrev S17x512 : Shape := ⟨2, ![17, 512]⟩
abbrev S17 : Shape := ⟨1, ![17]⟩
abbrev S16x512x512 : Shape := ⟨3, ![16, 512, 512]⟩
abbrev S16x17x512 : Shape := ⟨3, ![16, 17, 512]⟩
abbrev S16x17 : Shape := ⟨2, ![16, 17]⟩
abbrev S_ : Shape := ⟨0, ![]⟩

class Facts : Prop where
  bcast_S_S8192x512x1x1 : S_.BroadcastsInDim S8192x512x1x1 (![] : Fin 0 → Fin S8192x512x1x1.rank)
  reducesTo_S8192x512x1x1_S_d0_1_2_3 : S8192x512x1x1.ReducesTo [0, 1, 2, 3] S_
  h_S_ : 0 < S_.numel
  bcast_S_S512x512 : S_.BroadcastsInDim S512x512 (![] : Fin 0 → Fin S512x512.rank)
  reducesTo_S512x512_S_d0_1 : S512x512.ReducesTo [0, 1] S_
  bcast_S_S17x512 : S_.BroadcastsInDim S17x512 (![] : Fin 0 → Fin S17x512.rank)
  reducesTo_S17x512_S_d0_1 : S17x512.ReducesTo [0, 1] S_
  bcast_S_S17 : S_.BroadcastsInDim S17 (![] : Fin 0 → Fin S17.rank)
  reducesTo_S17_S_d0 : S17.ReducesTo [0] S_
  bcast_S_S16x512x512 : S_.BroadcastsInDim S16x512x512 (![] : Fin 0 → Fin S16x512x512.rank)
  reducesTo_S16x512x512_S_d0_1_2 : S16x512x512.ReducesTo [0, 1, 2] S_
  bcast_S_S16x17x512 : S_.BroadcastsInDim S16x17x512 (![] : Fin 0 → Fin S16x17x512.rank)
  reducesTo_S16x17x512_S_d0_1_2 : S16x17x512.ReducesTo [0, 1, 2] S_
  bcast_S_S16x17 : S_.BroadcastsInDim S16x17 (![] : Fin 0 → Fin S16x17.rank)
  reducesTo_S16x17_S_d0_1 : S16x17.ReducesTo [0, 1] S_

variable [Facts]

def fn_part1 {F : FTy → Type} [FloatOps F] (main_arg5 : FVec F S16x512x512 .f32) (main_arg6 : FVec F S16x17x512 .f32) (main_arg7 : FVec F S16x17 .f32) (main_v13 : IVec S_ 1) (main_v16 : IVec S17 1) : IVec S_ 1 :=
  let main_c_5 : IVec S_ 1 := constantI S_ 1 1#1
  let main_v17 : IVec S_ 1 := (fun x v => Host.reduce IntOp.andi x v reducesTo_S17_S_d0 h_S_) main_v16 main_c_5
  let main_v18 : IVec S_ 1 := andi main_v13 main_v17
  let main_v19 : FVec F S16x512x512 .f32 := Host.absf main_arg5
  let main_cst_6 : FVec F S_ .f32 := constant S_ .f32 0x7F800000#32
  let main_v20 : FVec F S16x512x512 .f32 := broadcastInDim S16x512x512 ![] bcast_S_S16x512x512 main_cst_6
  let main_v21 : IVec S16x512x512 1 := cmpf .olt main_v19 main_v20
  let main_c_7 : IVec S_ 1 := constantI S_ 1 1#1
  let main_v22 : IVec S_ 1 := (fun x v => Host.reduce IntOp.andi x v reducesTo_S16x512x512_S_d0_1_2 h_S_) main_v21 main_c_7
  let main_v23 : IVec S_ 1 := andi main_v18 main_v22
  let main_v24 : FVec F S16x17x512 .f32 := Host.absf main_arg6
  let main_cst_8 : FVec F S_ .f32 := constant S_ .f32 0x7F800000#32
  let main_v25 : FVec F S16x17x512 .f32 := broadcastInDim S16x17x512 ![] bcast_S_S16x17x512 main_cst_8
  let main_v26 : IVec S16x17x512 1 := cmpf .olt main_v24 main_v25
  let main_c_9 : IVec S_ 1 := constantI S_ 1 1#1
  let main_v27 : IVec S_ 1 := (fun x v => Host.reduce IntOp.andi x v reducesTo_S16x17x512_S_d0_1_2 h_S_) main_v26 main_c_9
  let main_v28 : IVec S_ 1 := andi main_v23 main_v27
  let main_v29 : FVec F S16x17 .f32 := Host.absf main_arg7
  let main_cst_10 : FVec F S_ .f32 := constant S_ .f32 0x7F800000#32
  let main_v30 : FVec F S16x17 .f32 := broadcastInDim S16x17 ![] bcast_S_S16x17 main_cst_10
  let main_v31 : IVec S16x17 1 := cmpf .olt main_v29 main_v30
  let main_c_11 : IVec S_ 1 := constantI S_ 1 1#1
  let main_v32 : IVec S_ 1 := (fun x v => Host.reduce IntOp.andi x v reducesTo_S16x17_S_d0_1 h_S_) main_v31 main_c_11
  let main_v33 : IVec S_ 1 := andi main_v28 main_v32
  main_v33

def fn {F : FTy → Type} [FloatOps F] (main_arg0 : FVec F S8192x512x1x1 .f32) (main_arg1 : IVec S8192 32) (main_arg2 : FVec F S512x512 .f32) (main_arg3 : FVec F S17x512 .f32) (main_arg4 : FVec F S17 .f32) (main_arg5 : FVec F S16x512x512 .f32) (main_arg6 : FVec F S16x17x512 .f32) (main_arg7 : FVec F S16x17 .f32) : IVec S_ 1 :=
  let main_v0 : FVec F S8192x512x1x1 .f32 := Host.absf main_arg0
  let main_cst : FVec F S_ .f32 := constant S_ .f32 0x7F800000#32
  let main_v1 : FVec F S8192x512x1x1 .f32 := broadcastInDim S8192x512x1x1 ![] bcast_S_S8192x512x1x1 main_cst
  let main_v2 : IVec S8192x512x1x1 1 := cmpf .olt main_v0 main_v1
  let main_c : IVec S_ 1 := constantI S_ 1 1#1
  let main_v3 : IVec S_ 1 := (fun x v => Host.reduce IntOp.andi x v reducesTo_S8192x512x1x1_S_d0_1_2_3 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S17x512 .f32 := Host.absf main_arg3
  let main_cst_2 : FVec F S_ .f32 := constant S_ .f32 0x7F800000#32
  let main_v10 : FVec F S17x512 .f32 := broadcastInDim S17x512 ![] bcast_S_S17x512 main_cst_2
  let main_v11 : IVec S17x512 1 := cmpf .olt main_v9 main_v10
  let main_c_3 : IVec S_ 1 := constantI S_ 1 1#1
  let main_v12 : IVec S_ 1 := (fun x v => Host.reduce IntOp.andi x v reducesTo_S17x512_S_d0_1 h_S_) main_v11 main_c_3
  let main_v13 : IVec S_ 1 := andi main_v8 main_v12
  let main_v14 : FVec F S17 .f32 := Host.absf main_arg4
  let main_cst_4 : FVec F S_ .f32 := constant S_ .f32 0x7F800000#32
  let main_v15 : FVec F S17 .f32 := broadcastInDim S17 ![] bcast_S_S17 main_cst_4
  let main_v16 : IVec S17 1 := cmpf .olt main_v14 main_v15
  fn_part1 (F := F) main_arg5 main_arg6 main_arg7 main_v13 main_v16
-- ==== Kernel.lean ====
abbrev S8192x512x1x1 : Shape := ⟨4, ![8192, 512, 1, 1]⟩
abbrev S8192 : Shape := ⟨1, ![8192]⟩
abbrev S512x512 : Shape := ⟨2, ![512, 512]⟩
abbrev S17x512 : Shape := ⟨2, ![17, 512]⟩
abbrev S17 : Shape := ⟨1, ![17]⟩
abbrev S16x512x512 : Shape := ⟨3, ![16, 512, 512]⟩
abbrev S16x17x512 : Shape := ⟨3, ![16, 17, 512]⟩
abbrev S16x17 : Shape := ⟨2, ![16, 17]⟩
abbrev S8192x512 : Shape := ⟨2, ![8192, 512]⟩
abbrev S8192x256 : Shape := ⟨2, ![8192, 256]⟩
abbrev S256x512 : Shape := ⟨2, ![256, 512]⟩
abbrev S256x256 : Shape := ⟨2, ![256, 256]⟩
abbrev S1x512x512 : Shape := ⟨3, ![1, 512, 512]⟩
abbrev S1x17x512 : Shape := ⟨3, ![1, 17, 512]⟩
abbrev S1x17 : Shape := ⟨2, ![1, 17]⟩
abbrev S256x17 : Shape := ⟨2, ![256, 17]⟩
abbrev S256x16 : Shape := ⟨2, ![256, 16]⟩
abbrev S_ : Shape := ⟨0, ![]⟩
abbrev S8192x1 : Shape := ⟨2, ![8192, 1]⟩
abbrev S8192x257 : Shape := ⟨2, ![8192, 257]⟩

abbrev nBuf : Space → Nat
  | .hbm => 17
  | .vmem => 9
  | .smem => 0
  | _ => 0

abbrev bufTy : (tb : Table) → Fin (tcTables nBuf tb) → BufTy
  | .hbm, ⟨0, _⟩ => ⟨S8192x512x1x1, .f32⟩
  | .hbm, ⟨1, _⟩ => ⟨S8192, .i32⟩
  | .hbm, ⟨2, _⟩ => ⟨S512x512, .f32⟩
  | .hbm, ⟨3, _⟩ => ⟨S17x512, .f32⟩
  | .hbm, ⟨4, _⟩ => ⟨S17, .f32⟩
  | .hbm, ⟨5, _⟩ => ⟨S16x512x512, .f32⟩
  | .hbm, ⟨6, _⟩ => ⟨S16x17x512, .f32⟩
  | .hbm, ⟨7, _⟩ => ⟨S16x17, .f32⟩
  | .hbm, ⟨8, _⟩ => ⟨S8192x512, .f32⟩
  | .hbm, ⟨9, _⟩ => ⟨S512x512, .bf16⟩
  | .hbm, ⟨10, _⟩ => ⟨S16x512x512, .bf16⟩
  | .hbm, ⟨11, _⟩ => ⟨S16x17x512, .bf16⟩
  | .hbm, ⟨12, _⟩ => ⟨S8192x256, .f32⟩
  | .hbm, ⟨13, _⟩ => ⟨S_, .f32⟩
  | .hbm, ⟨14, _⟩ => ⟨S8192x1, .f32⟩
  | .hbm, ⟨15, _⟩ => ⟨S8192x257, .f32⟩
  | .hbm, ⟨16, _⟩ => ⟨S_, .f32⟩
  | .local _ .vmem, ⟨0, _⟩ => ⟨S256x512, .f32⟩
  | .local _ .vmem, ⟨1, _⟩ => ⟨S256x512, .f32⟩
  | .local _ .vmem, ⟨2, _⟩ => ⟨S512x512, .bf16⟩
  | .local _ .vmem, ⟨3, _⟩ => ⟨S16x512x512, .bf16⟩
  | .local _ .vmem, ⟨4, _⟩ => ⟨S16x17x512, .bf16⟩
  | .local _ .vmem, ⟨5, _⟩ => ⟨S16x17, .f32⟩
  | .local _ .vmem, ⟨6, _⟩ => ⟨S256x256, .f32⟩
  | .local _ .vmem, ⟨7, _⟩ => ⟨S256x256, .f32⟩
  | .local _ .vmem, ⟨8, _⟩ => ⟨S256x512, .bf16⟩
  | _, _ => ⟨S8192x512x1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x17x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x17 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8192x512x1x1_S8192x512 : S8192x512x1x1.ShapeCasts S8192x512
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S256x512_S256x512_0_0 : (Rect.unit (s := S256x512) ![0, 0] S256x512.size inb_S256x512_S256x512_0_0).PackedRows (EltTy.packing .bf16)
  inb_S16x512x512_S1x512x512_0_0_0 : ∀ a, (![0, 0, 0] : Fin 3 → Nat) a + S1x512x512.size a ≤ S16x512x512.size a
  h_S1x512x512 : 0 < S1x512x512.numel
  shapeCasts_S1x512x512_S512x512 : S1x512x512.ShapeCasts S512x512
  inb_S16x17x512_S1x17x512_0_0_0 : ∀ a, (![0, 0, 0] : Fin 3 → Nat) a + S1x17x512.size a ≤ S16x17x512.size a
  h_S1x17x512 : 0 < S1x17x512.numel
  shapeCasts_S1x17x512_S17x512 : S1x17x512.ShapeCasts S17x512
  inb_S16x17_S1x17_0_0 : ∀ a, (![0, 0] : Fin 2 → Nat) a + S1x17.size a ≤ S16x17.size a
  h_S1x17 : 0 < S1x17.numel
  shapeCasts_S1x17_S17 : S1x17.ShapeCasts S17
  shapeCasts_S17_S1x17 : S17.ShapeCasts S1x17
  broadcasts_S1x17_S256x17 : S1x17.Broadcasts S256x17
  slices_S256x17_o0_0_S256x16 : S256x17.Slices ![0, 0] S256x16
  inb_S256x256_S256x16_0_0 : ∀ a, (![0, 0] : Fin 2 → Nat) a + S256x16.size a ≤ S256x256.size a
  h_S256x16 : 0 < S256x16.numel
  inb_S16x512x512_S1x512x512_1_0_0 : ∀ a, (![1, 0, 0] : Fin 3 → Nat) a + S1x512x512.size a ≤ S16x512x512.size a
  inb_S16x17x512_S1x17x512_1_0_0 : ∀ a, (![1, 0, 0] : Fin 3 → Nat) a + S1x17x512.size a ≤ S16x17x512.size a
  inb_S16x17_S1x17_1_0 : ∀ a, (![1, 0] : Fin 2 → Nat) a + S1x17.size a ≤ S16x17.size a
  inb_S256x256_S256x16_0_16 : ∀ a, (![0, 16] : Fin 2 → Nat) a + S256x16.size a ≤ S256x256.size a
  inb_S16x512x512_S1x512x512_2_0_0 : ∀ a, (![2, 0, 0] : Fin 3 → Nat) a + S1x512x512.size a ≤ S16x512x512.size a
  inb_S16x17x512_S1x17x512_2_0_0 : ∀ a, (![2, 0, 0] : Fin 3 → Nat) a + S1x17x512.size a ≤ S16x17x512.size a
  inb_S16x17_S1x17_2_0 : ∀ a, (![2, 0] : Fin 2 → Nat) a + S1x17.size a ≤ S16x17.size a
  inb_S256x256_S256x16_0_32 : ∀ a, (![0, 32] : Fin 2 → Nat) a + S256x16.size a ≤ S256x256.size a
  inb_S16x512x512_S1x512x512_3_0_0 : ∀ a, (![3, 0, 0] : Fin 3 → Nat) a + S1x512x512.size a ≤ S16x512x512.size a
  inb_S16x17x512_S1x17x512_3_0_0 : ∀ a, (![3, 0, 0] : Fin 3 → Nat) a + S1x17x512.size a ≤ S16x17x512.size a
  inb_S16x17_S1x17_3_0 : ∀ a, (![3, 0] : Fin 2 → Nat) a + S1x17.size a ≤ S16x17.size a
  inb_S256x256_S256x16_0_48 : ∀ a, (![0, 48] : Fin 2 → Nat) a + S256x16.size a ≤ S256x256.size a
  inb_S16x512x512_S1x512x512_4_0_0 : ∀ a, (![4, 0, 0] : Fin 3 → Nat) a + S1x512x512.size a ≤ S16x512x512.size a
  inb_S16x17x512_S1x17x512_4_0_0 : ∀ a, (![4, 0, 0] : Fin 3 → Nat) a + S1x17x512.size a ≤ S16x17x512.size a
  inb_S16x17_S1x17_4_0 : ∀ a, (![4, 0] : Fin 2 → Nat) a + S1x17.size a ≤ S16x17.size a
  inb_S256x256_S256x16_0_64 : ∀ a, (![0, 64] : Fin 2 → Nat) a + S256x16.size a ≤ S256x256.size a
  inb_S16x512x512_S1x512x512_5_0_0 : ∀ a, (![5, 0, 0] : Fin 3 → Nat) a + S1x512x512.size a ≤ S16x512x512.size a
  inb_S16x17x512_S1x17x512_5_0_0 : ∀ a, (![5, 0, 0] : Fin 3 → Nat) a + S1x17x512.size a ≤ S16x17x512.size a
  inb_S16x17_S1x17_5_0 : ∀ a, (![5, 0] : Fin 2 → Nat) a + S1x17.size a ≤ S16x17.size a
  inb_S256x256_S256x16_0_80 : ∀ a, (![0, 80] : Fin 2 → Nat) a + S256x16.size a ≤ S256x256.size a
  inb_S16x512x512_S1x512x512_6_0_0 : ∀ a, (![6, 0, 0] : Fin 3 → Nat) a + S1x512x512.size a ≤ S16x512x512.size a
  inb_S16x17x512_S1x17x512_6_0_0 : ∀ a, (![6, 0, 0] : Fin 3 → Nat) a + S1x17x512.size a ≤ S16x17x512.size a
  inb_S16x17_S1x17_6_0 : ∀ a, (![6, 0] : Fin 2 → Nat) a + S1x17.size a ≤ S16x17.size a
  inb_S256x256_S256x16_0_96 : ∀ a, (![0, 96] : Fin 2 → Nat) a + S256x16.size a ≤ S256x256.size a
  inb_S16x512x512_S1x512x512_7_0_0 : ∀ a, (![7, 0, 0] : Fin 3 → Nat) a + S1x512x512.size a ≤ S16x512x512.size a
  inb_S16x17x512_S1x17x512_7_0_0 : ∀ a, (![7, 0, 0] : Fin 3 → Nat) a + S1x17x512.size a ≤ S16x17x512.size a
  inb_S16x17_S1x17_7_0 : ∀ a, (![7, 0] : Fin 2 → Nat) a + S1x17.size a ≤ S16x17.size a
  inb_S256x256_S256x16_0_112 : ∀ a, (![0, 112] : Fin 2 → Nat) a + S256x16.size a ≤ S256x256.size a
  inb_S16x512x512_S1x512x512_8_0_0 : ∀ a, (![8, 0, 0] : Fin 3 → Nat) a + S1x512x512.size a ≤ S16x512x512.size a
  inb_S16x17x512_S1x17x512_8_0_0 : ∀ a, (![8, 0, 0] : Fin 3 → Nat) a + S1x17x512.size a ≤ S16x17x512.size a
  inb_S16x17_S1x17_8_0 : ∀ a, (![8, 0] : Fin 2 → Nat) a + S1x17.size a ≤ S16x17.size a
  inb_S256x256_S256x16_0_128 : ∀ a, (![0, 128] : Fin 2 → Nat) a + S256x16.size a ≤ S256x256.size a
  inb_S16x512x512_S1x512x512_9_0_0 : ∀ a, (![9, 0, 0] : Fin 3 → Nat) a + S1x512x512.size a ≤ S16x512x512.size a
  inb_S16x17x512_S1x17x512_9_0_0 : ∀ a, (![9, 0, 0] : Fin 3 → Nat) a + S1x17x512.size a ≤ S16x17x512.size a
  inb_S16x17_S1x17_9_0 : ∀ a, (![9, 0] : Fin 2 → Nat) a + S1x17.size a ≤ S16x17.size a
  inb_S256x256_S256x16_0_144 : ∀ a, (![0, 144] : Fin 2 → Nat) a + S256x16.size a ≤ S256x256.size a
  inb_S16x512x512_S1x512x512_10_0_0 : ∀ a, (![10, 0, 0] : Fin 3 → Nat) a + S1x512x512.size a ≤ S16x512x512.size a
  inb_S16x17x512_S1x17x512_10_0_0 : ∀ a, (![10, 0, 0] : Fin 3 → Nat) a + S1x17x512.size a ≤ S16x17x512.size a
  inb_S16x17_S1x17_10_0 : ∀ a, (![10, 0] : Fin 2 → Nat) a + S1x17.size a ≤ S16x17.size a
  inb_S256x256_S256x16_0_160 : ∀ a, (![0, 160] : Fin 2 → Nat) a + S256x16.size a ≤ S256x256.size a
  inb_S16x512x512_S1x512x512_11_0_0 : ∀ a, (![11, 0, 0] : Fin 3 → Nat) a + S1x512x512.size a ≤ S16x512x512.size a
  inb_S16x17x512_S1x17x512_11_0_0 : ∀ a, (![11, 0, 0] : Fin 3 → Nat) a + S1x17x512.size a ≤ S16x17x512.size a
  inb_S16x17_S1x17_11_0 : ∀ a, (![11, 0] : Fin 2 → Nat) a + S1x17.size a ≤ S16x17.size a
  inb_S256x256_S256x16_0_176 : ∀ a, (![0, 176] : Fin 2 → Nat) a + S256x16.size a ≤ S256x256.size a
  inb_S16x512x512_S1x512x512_12_0_0 : ∀ a, (![12, 0, 0] : Fin 3 → Nat) a + S1x512x512.size a ≤ S16x512x512.size a
  inb_S16x17x512_S1x17x512_12_0_0 : ∀ a, (![12, 0, 0] : Fin 3 → Nat) a + S1x17x512.size a ≤ S16x17x512.size a
  inb_S16x17_S1x17_12_0 : ∀ a, (![12, 0] : Fin 2 → Nat) a + S1x17.size a ≤ S16x17.size a
  inb_S256x256_S256x16_0_192 : ∀ a, (![0, 192] : Fin 2 → Nat) a + S256x16.size a ≤ S256x256.size a
  inb_S16x512x512_S1x512x512_13_0_0 : ∀ a, (![13, 0, 0] : Fin 3 → Nat) a + S1x512x512.size a ≤ S16x512x512.size a
  inb_S16x17x512_S1x17x512_13_0_0 : ∀ a, (![13, 0, 0] : Fin 3 → Nat) a + S1x17x512.size a ≤ S16x17x512.size a
  inb_S16x17_S1x17_13_0 : ∀ a, (![13, 0] : Fin 2 → Nat) a + S1x17.size a ≤ S16x17.size a
  inb_S256x256_S256x16_0_208 : ∀ a, (![0, 208] : Fin 2 → Nat) a + S256x16.size a ≤ S256x256.size a
  inb_S16x512x512_S1x512x512_14_0_0 : ∀ a, (![14, 0, 0] : Fin 3 → Nat) a + S1x512x512.size a ≤ S16x512x512.size a
  inb_S16x17x512_S1x17x512_14_0_0 : ∀ a, (![14, 0, 0] : Fin 3 → Nat) a + S1x17x512.size a ≤ S16x17x512.size a
  inb_S16x17_S1x17_14_0 : ∀ a, (![14, 0] : Fin 2 → Nat) a + S1x17.size a ≤ S16x17.size a
  inb_S256x256_S256x16_0_224 : ∀ a, (![0, 224] : Fin 2 → Nat) a + S256x16.size a ≤ S256x256.size a
  inb_S16x512x512_S1x512x512_15_0_0 : ∀ a, (![15, 0, 0] : Fin 3 → Nat) a + S1x512x512.size a ≤ S16x512x512.size a
  inb_S16x17x512_S1x17x512_15_0_0 : ∀ a, (![15, 0, 0] : Fin 3 → Nat) a + S1x17x512.size a ≤ S16x17x512.size a
  inb_S16x17_S1x17_15_0 : ∀ a, (![15, 0] : Fin 2 → Nat) a + S1x17.size a ≤ S16x17.size a
  inb_S256x256_S256x16_0_240 : ∀ a, (![0, 240] : Fin 2 → Nat) a + S256x16.size a ≤ S256x256.size a
  bcast_S_S8192x1 : S_.BroadcastsInDim S8192x1 (![] : Fin 0 → Fin S8192x1.rank)
  concatenates_S8192x256_S8192x1_S8192x257_d1 : Shape.Concatenates [S8192x256, S8192x1] S8192x257 1
  dot_S256x512_S512x512_S256x512_1_1_0_0_n_n_wf : DotDims.WF S256x512 S512x512 S256x512 [1] [1] [0] [0] [] []
  dot_S256x512_S17x512_S256x17_1_1_0_0_n_n_wf : DotDims.WF S256x512 S17x512 S256x17 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S8192x512.size a
  hwx0_0 : ∀ i : grid0.Coords, EltTy.bits .f32 = 32 ∨ (Rect.block (s := S8192x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x512x512.size a ≤ S16x512x512.size a
  hwx0_2 : ∀ i : grid0.Coords, EltTy.bits .bf16 = 32 ∨ (Rect.block (s := S16x512x512) S16x512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x17x512.size a ≤ S16x17x512.size a
  hwx0_3 : ∀ i : grid0.Coords, EltTy.bits .bf16 = 32 ∨ (Rect.block (s := S16x17x512) S16x17x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x17.size a ≤ S16x17.size a
  hwx0_4 : ∀ i : grid0.Coords, EltTy.bits .f32 = 32 ∨ (Rect.block (s := S16x17) S16x17.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S8192x256.size a
  hwx0_5 : ∀ i : grid0.Coords, EltTy.bits .f32 = 32 ∨ (Rect.block (s := S8192x256) S256x256.size (cc0_transform_5 i) (hinb0_5 i)).WholeWords (EltTy.packing .f32)

variable [Facts₀]

def dot_S256x512_S512x512_S256x512_1_1_0_0_n_n : DotDims S256x512 S512x512 S256x512 where
  lhsContracting := [1]
  rhsContracting := [1]
  lhsNonContracting := [0]
  rhsNonContracting := [0]
  lhsBatch := []
  rhsBatch := []
  wf := dot_S256x512_S512x512_S256x512_1_1_0_0_n_n_wf
def dot_S256x512_S17x512_S256x17_1_1_0_0_n_n : DotDims S256x512 S17x512 S256x17 where
  lhsContracting := [1]
  rhsContracting := [1]
  lhsNonContracting := [0]
  rhsNonContracting := [0]
  lhsBatch := []
  rhsBatch := []
  wf := dot_S256x512_S17x512_S256x17_1_1_0_0_n_n_wf

abbrev win0_0 : Pipeline.Window sig grid0 :=
  Pipeline.Window.ofSpec (Memref.whole main_v0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x17x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S16x17.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x512x1x1 : Shape := ⟨4, ![8192, 512, 1, 1]⟩
abbrev S8192 : Shape := ⟨1, ![8192]⟩
abbrev S512x512 : Shape := ⟨2, ![512, 512]⟩
abbrev S17x512 : Shape := ⟨2, ![17, 512]⟩
abbrev S17 : Shape := ⟨1, ![17]⟩
abbrev S16x512x512 : Shape := ⟨3, ![16, 512, 512]⟩
abbrev S16x17x512 : Shape := ⟨3, ![16, 17, 512]⟩
abbrev S16x17 : Shape := ⟨2, ![16, 17]⟩
abbrev S8192x512 : Shape := ⟨2, ![8192, 512]⟩
abbrev S512x17 : Shape := ⟨2, ![512, 17]⟩
abbrev S8192x17 : Shape := ⟨2, ![8192, 17]⟩
abbrev S1x17 : Shape := ⟨2, ![1, 17]⟩
abbrev S16x512x8192 : Shape := ⟨3, ![16, 512, 8192]⟩
abbrev S16x8192x512 : Shape := ⟨3, ![16, 8192, 512]⟩
abbrev S16x8192x17 : Shape := ⟨3, ![16, 8192, 17]⟩
abbrev S16x1x17 : Shape := ⟨3, ![16, 1, 17]⟩
abbrev S16x8192x16 : Shape := ⟨3, ![16, 8192, 16]⟩
abbrev S8192x16x16 : Shape := ⟨3, ![8192, 16, 16]⟩
abbrev S8192x256 : Shape := ⟨2, ![8192, 256]⟩
abbrev S_ : Shape := ⟨0, ![]⟩
abbrev S8192x1 : Shape := ⟨2, ![8192, 1]⟩
abbrev S8192x257 : Shape := ⟨2, ![8192, 257]⟩

abbrev nBuf : Space → Nat
  | .hbm => 29
  | .vmem => 0
  | .smem => 0
  | _ => 0

abbrev bufTy : (tb : Table) → Fin (tcTables nBuf tb) → BufTy
  | .hbm, ⟨0, _⟩ => ⟨S8192x512x1x1, .f32⟩
  | .hbm, ⟨1, _⟩ => ⟨S8192, .i32⟩
  | .hbm, ⟨2, _⟩ => ⟨S512x512, .f32⟩
  | .hbm, ⟨3, _⟩ => ⟨S17x512, .f32⟩
  | .hbm, ⟨4, _⟩ => ⟨S17, .f32⟩
  | .hbm, ⟨5, _⟩ => ⟨S16x512x512, .f32⟩
  | .hbm, ⟨6, _⟩ => ⟨S16x17x512, .f32⟩
  | .hbm, ⟨7, _⟩ => ⟨S16x17, .f32⟩
  | .hbm, ⟨8, _⟩ => ⟨S8192x512, .f32⟩
  | .hbm, ⟨9, _⟩ => ⟨S512x512, .f32⟩
  | .hbm, ⟨10, _⟩ => ⟨S8192x512, .f32⟩
  | .hbm, ⟨11, _⟩ => ⟨S512x17, .f32⟩
  | .hbm, ⟨12, _⟩ => ⟨S8192x17, .f32⟩
  | .hbm, ⟨13, _⟩ => ⟨S1x17, .f32⟩
  | .hbm, ⟨14, _⟩ => ⟨S8192x17, .f32⟩
  | .hbm, ⟨15, _⟩ => ⟨S8192x17, .f32⟩
  | .hbm, ⟨16, _⟩ => ⟨S16x512x8192, .f32⟩
  | .hbm, ⟨17, _⟩ => ⟨S16x8192x512, .f32⟩
  | .hbm, ⟨18, _⟩ => ⟨S16x8192x17, .f32⟩
  | .hbm, ⟨19, _⟩ => ⟨S16x1x17, .f32⟩
  | .hbm, ⟨20, _⟩ => ⟨S16x8192x17, .f32⟩
  | .hbm, ⟨21, _⟩ => ⟨S16x8192x17, .f32⟩
  | .hbm, ⟨22, _⟩ => ⟨S16x8192x16, .f32⟩
  | .hbm, ⟨23, _⟩ => ⟨S8192x16x16, .f32⟩
  | .hbm, ⟨24, _⟩ => ⟨S8192x256, .f32⟩
  | .hbm, ⟨25, _⟩ => ⟨S_, .f32⟩
  | .hbm, ⟨26, _⟩ => ⟨S8192x1, .f32⟩
  | .hbm, ⟨27, _⟩ => ⟨S8192x257, .f32⟩
  | .hbm, ⟨28, _⟩ => ⟨S_, .f32⟩
  | _, _ => ⟨S8192x512x1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩

abbrev nD : Nat := 1
abbrev τ : Topo := Topo.v7x

variable {F : FTy → Type} [FloatOps F]

class Facts₀ : Prop where
  shapeCasts_S8192x512x1x1_S8192x512 : S8192x512x1x1.ShapeCasts S8192x512
  transposes_S512x512_S512x512_1_0 : S512x512.Transposes [1, 0] S512x512
  transposes_S17x512_S512x17_1_0 : S17x512.Transposes [1, 0] S512x17
  bcast_S17_S1x17_1 : S17.BroadcastsInDim S1x17 (![1] : Fin 1 → Fin S1x17.rank)
  bcast_S1x17_S8192x17_0_1 : S1x17.BroadcastsInDim S8192x17 (![0, 1] : Fin 2 → Fin S8192x17.rank)
  transposes_S16x512x8192_S16x8192x512_0_2_1 : S16x512x8192.Transposes [0, 2, 1] S16x8192x512
  bcast_S16x17_S16x1x17_0_2 : S16x17.BroadcastsInDim S16x1x17 (![0, 2] : Fin 2 → Fin S16x1x17.rank)
  bcast_S16x1x17_S16x8192x17_0_1_2 : S16x1x17.BroadcastsInDim S16x8192x17 (![0, 1, 2] : Fin 3 → Fin S16x8192x17.rank)
  slices_S16x8192x17_S16x8192x16_0_0_0 : S16x8192x17.Slices ![0, 0, 0] S16x8192x16
  transposes_S16x8192x16_S8192x16x16_1_0_2 : S16x8192x16.Transposes [1, 0, 2] S8192x16x16
  shapeCasts_S8192x16x16_S8192x256 : S8192x16x16.ShapeCasts S8192x256
  bcast_S_S8192x1 : S_.BroadcastsInDim S8192x1 (![] : Fin 0 → Fin S8192x1.rank)
  concatenates_S8192x256_S8192x1_S8192x257_d1 : Shape.Concatenates [S8192x256, S8192x1] S8192x257 1
  dot_S8192x512_S512x512_S8192x512_1_0_0_1_n_n_wf : DotDims.WF S8192x512 S512x512 S8192x512 [1] [0] [0] [1] [] []
  dot_S8192x512_S512x17_S8192x17_1_0_0_1_n_n_wf : DotDims.WF S8192x512 S512x17 S8192x17 [1] [0] [0] [1] [] []
  dot_S16x512x512_S8192x512_S16x512x8192_2_1_01_0_n_n_wf : DotDims.WF S16x512x512 S8192x512 S16x512x8192 [2] [1] [0, 1] [0] [] []
  dot_S16x8192x512_S16x17x512_S16x8192x17_2_2_1_1_0_0_wf : DotDims.WF S16x8192x512 S16x17x512 S16x8192x17 [2] [2] [1] [1] [0] [0]

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S512x17_S8192x17_1_0_0_1_n_n : DotDims S8192x512 S512x17 S8192x17 where
  lhsContracting := [1]
  rhsContracting := [0]
  lhsNonContracting := [0]
  rhsNonContracting := [1]
  lhsBatch := []
  rhsBatch := []
  wf := dot_S8192x512_S512x17_S8192x17_1_0_0_1_n_n_wf
def dot_S16x512x512_S8192x512_S16x512x8192_2_1_01_0_n_n : DotDims S16x512x512 S8192x512 S16x512x8192 where
  lhsContracting := [2]
  rhsContracting := [1]
  lhsNonContracting := [0, 1]
  rhsNonContracting := [0]
  lhsBatch := []
  rhsBatch := []
  wf := dot_S16x512x512_S8192x512_S16x512x8192_2_1_01_0_n_n_wf
def dot_S16x8192x512_S16x17x512_S16x8192x17_2_2_1_1_0_0 : DotDims S16x8192x512 S16x17x512 S16x8192x17 where
  lhsContracting := [2]
  rhsContracting := [2]
  lhsNonContracting := [1]
  rhsNonContracting := [1]
  lhsBatch := [0]
  rhsBatch := [0]
  wf := dot_S16x8192x512_S16x17x512_S16x8192x17_2_2_1_1_0_0_wf

class Facts : Prop extends Facts₀ where

variable [Facts]
-- ==== Proof.Spec.lean ====
/-
  The routed classifier as one function of the argument arrays, over the extended reals.

  A row x (512 features) is first mixed by the root weight, h(d) = Σ_k x(k) · w1(d, k).  Each of the 16 branches b then
  mixes h by its own weight, g_b(e) = Σ_d h(d) · w2(b, e, d), and scores its 17 children,
  p_b(i) = Σ_e g_b(e) · wf(b, i, e) + bias(b, i).  The class scores of the row are the first 16 children of every
  branch, laid side by side: column 16·b + i holds p_b(i).

  `cell` is one such score; `scores` lays the 256 of a row out by column, for a matrix of any number of rows (the
  whole batch, or one block of rows of it).
-/
import Idealize.ShloMosaic.PureOps.Ideal
import Idealize.ShloMosaic.Lib.ValueIdx

noncomputable section

open scoped BigOperators

namespace Cert.Routed

open Idealize.ShloMosaic Idealize.ShloMosaic.ValueIdx

/-- The score of child `i` of branch `b` for row `r`: Σ_e (Σ_d (Σ_k x(r,k)·w1(d,k)) · w2(b,e,d)) · wf(b,i,e) + bias(b,i). -/
def cell {R : Nat} (x : (⟨2, ![R, 512]⟩ : Shape).Idx → EReal) (w1 : (⟨2, ![512, 512]⟩ : Shape).Idx → EReal)
    (w2 : (⟨3, ![16, 512, 512]⟩ : Shape).Idx → EReal) (wf : (⟨3, ![16, 17, 512]⟩ : Shape).Idx → EReal)
    (bias : (⟨2, ![16, 17]⟩ : Shape).Idx → EReal) (r : Fin R) (b : Fin 16) (i : Fin 17) : EReal :=
  (∑ e : Fin 512, (∑ d : Fin 512, (∑ k : Fin 512, x (ix2 r k) * w1 (ix2 d k)) * w2 (ix3 b e d)) * wf (ix3 b i e))
    + bias (ix2 b i)

/-- A score depends on the row's features, on the root weight, and on the branch's own slabs only — entry by entry. -/
theorem cell_congr {R R' : Nat} (x : (⟨2, ![R, 512]⟩ : Shape).Idx → EReal) (x' : (⟨2, ![R', 512]⟩ : Shape).Idx → EReal)
    (w1 w1' : (⟨2, ![512, 512]⟩ : Shape).Idx → EReal) (w2 w2' : (⟨3, ![16, 512, 512]⟩ : Shape).Idx → EReal)
    (wf wf' : (⟨3, ![16, 17, 512]⟩ : Shape).Idx → EReal) (bias bias' : (⟨2, ![16, 17]⟩ : Shape).Idx → EReal)
    (r : Fin R) (r' : Fin R') (b : Fin 16) (i : Fin 17)
    (hx : ∀ k : Fin 512, x (ix2 r k) = x' (ix2 r' k)) (h1 : ∀ d k : Fin 512, w1 (ix2 d k) = w1' (ix2 d k))
    (h2 : ∀ e d : Fin 512, w2 (ix3 b e d) = w2' (ix3 b e d)) (h3 : ∀ e : Fin 512, wf (ix3 b i e) = wf' (ix3 b i e))
    (h4 : bias (ix2 b i) = bias' (ix2 b i)) :
    cell x w1 w2 wf bias r b i = cell x' w1' w2' wf' bias' r' b i := by
  unfold cell
  refine congrArg₂ (· + ·) (Finset.sum_congr rfl fun e _ => congrArg₂ (· * ·) (Finset.sum_congr rfl fun d _ =>
    congrArg₂ (· * ·) (Finset.sum_congr rfl fun k _ => congrArg₂ (· * ·) (hx k) (h1 d k)) (h2 e d)) (h3 e)) h4

/-- The branch a column belongs to, -/
def branchOf (q : Nat) (h : q < 256) : Fin 16 := ⟨q / 16, by omega⟩
/-- and the child within the branch (one of its first 16). -/
def childOf (q : Nat) : Fin 17 := ⟨q % 16, by omega⟩

/-- The class scores of an R-row matrix: entry (r, q) is the score of child q mod 16 of branch q div 16 for row r. -/
def scores {R : Nat} (x : (⟨2, ![R, 512]⟩ : Shape).Idx → EReal) (w1 : (⟨2, ![512, 512]⟩ : Shape).Idx → EReal)
    (w2 : (⟨3, ![16, 512, 512]⟩ : Shape).Idx → EReal) (wf : (⟨3, ![16, 17, 512]⟩ : Shape).Idx → EReal)
    (bias : (⟨2, ![16, 17]⟩ : Shape).Idx → EReal) : (⟨2, ![R, 256]⟩ : Shape).Idx → EReal :=
  fun j => cell x w1 w2 wf bias ⟨(j 0).val, idx2_lt0 j⟩ (branchOf (j 1).val (idx2_lt1 j)) (childOf (j 1).val)

/-- Read at explicit coordinates: row r, branch b, child i < 16 sit at column 16·b + i. -/
theorem scores_apply {R : Nat} (x : (⟨2, ![R, 512]⟩ : Shape).Idx → EReal) (w1 : (⟨2, ![512, 512]⟩ : Shape).Idx → EReal)
    (w2 : (⟨3, ![16, 512, 512]⟩ : Shape).Idx → EReal) (wf : (⟨3, ![16, 17, 512]⟩ : Shape).Idx → EReal)
    (bias : (⟨2, ![16, 17]⟩ : Shape).Idx → EReal) (j : (⟨2, ![R, 256]⟩ : Shape).Idx) (r : Fin R) (b : Fin 16) (i : Fin 17)
    (hr : (j 0).val = r.val) (hq : (j 1).val = 16 * b.val + i.val) (hi : i.val < 16) :
    scores x w1 w2 wf bias j = cell x w1 w2 wf bias r b i := by
  have e0 : (⟨(j 0).val, idx2_lt0 j⟩ : Fin R) = r := Fin.ext hr
  have e1 : branchOf (j 1).val (idx2_lt1 j) = b := Fin.ext (by show (j 1).val / 16 = b.val; omega)
  have e2 : childOf (j 1).val = i := Fin.ext (by show (j 1).val % 16 = i.val; omega)
  show cell x w1 w2 wf bias _ _ _ = _
  rw [e0, e1, e2]

end Cert.Routed

end
-- ==== Proof.LibRowOps.lean ====
/-
  Row-wise operations of a matrix at the ideal values, read at explicit coordinates.

  For an [R, C] f32 matrix: the sum along the lanes at row n is the sum over the columns of the entries of that row; the
  maximum along the lanes at row n is the fold of max, from the starting word's value, over the columns; a vector of R
  entries recast as an [R, 1] column and broadcast to [R, C] has at (n, c) the vector's entry n.  For an [R, K] × [C, K]
  product into the zero accumulator that contracts axis 1 of both operands (a product with the second operand
  transposed), entry (p, q) is Σ_k l(p, k) · r(q, k).  All hold at any extents; indices are written by coordinates.
-/
import Idealize.ShloMosaic.PureOps.Ideal.Laws
import Idealize.ShloMosaic.Lib.ValueIdx
import Idealize.ShloMosaic.Lib.Pipeline.Value

noncomputable section

open scoped BigOperators

namespace Cert.LibRow

open Idealize.ShloMosaic Idealize.ShloMosaic.ValueIdx

/-- A sum along the lanes of an [R, C] matrix, at row n, is the sum over the columns of the entries of that row. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (n : Fin R) :
    multiReduction .add [1] ⟨1, ![R]⟩ src 0x00000000#32 h hφ hacc (ix1 n) = ∑ a : Fin C, src (ix2 n a) :=
  (Ideal.multiReduction_add_single src _ h hφ hacc (ix1 n)).trans
    (Finset.sum_congr rfl fun a _ => congrArg src (funext fun d => Fin.ext (by
      match d with
      | ⟨0, _⟩ => rfl
      | ⟨1, _⟩ => rfl)))

/-- A maximum along the lanes of an [R, C] matrix, at row n, is the fold of max, from the starting word's value, over
    the columns of the entries of that row. -/
theorem rowMax_apply {R C : Nat} (src : FVec Ideal ⟨2, ![R, C]⟩ .f32) (acc : BitVec 32)
    (h : Shape.Reduces (⟨2, ![R, C]⟩ : Shape) [1] ⟨1, ![R]⟩) (hφ : FKind.Formats .f32)
    (hacc : acc = FKind.maximumf.neutral .f32 hφ) (n : Fin R) :
    multiReduction .maximumf [1] ⟨1, ![R]⟩ src acc h hφ hacc (ix1 n)
      = (Finset.univ : Finset (Fin C)).fold max (Ideal.ofBits .f32 acc) (fun a => src (ix2 n a)) :=
  (Ideal.multiReduction_maximumf_single src acc h hφ hacc (ix1 n)).trans
    (congrArg (fun f => Finset.fold max (Ideal.ofBits .f32 acc) f (Finset.univ : Finset (Fin C)))
      (funext fun a => congrArg src (funext fun d => Fin.ext (by
        match d with
        | ⟨0, _⟩ => rfl
        | ⟨1, _⟩ => rfl))))

/-- A vector of R entries recast as an [R, 1] column and broadcast to [R, C] has at (n, c) the vector's entry n. -/
theorem colBroadcast_apply {R C : Nat} {α : Type} (v : (⟨1, ![R]⟩ : Shape).Idx → α)
    (h1 : (⟨1, ![R]⟩ : Shape).ShapeCasts ⟨2, ![R, 1]⟩) (h2 : (⟨2, ![R, 1]⟩ : Shape).Broadcasts ⟨2, ![R, C]⟩)
    (n : Fin R) (c : Fin C) :
    broadcastTo ⟨2, ![R, C]⟩ (shapeCast ⟨2, ![R, 1]⟩ v h1) h2 (ix2 n c) = v (ix1 n) := by
  refine (broadcastTo_apply (shapeCast ⟨2, ![R, 1]⟩ v h1) h2 (ix2 n c) (ix2 n (0 : Fin 1)) fun ax => ?_).trans ?_
  · match ax with
    | ⟨0, _⟩ =>
      show n.val = if R = 1 then 0 else n.val
      split
      · have := n.isLt; omega
      · rfl
    | ⟨1, _⟩ => rfl
  · exact shapeCast_apply v h1 _ _ (by
      rw [Shape.rowMajor_val_one, Shape.rowMajor_val_two]
      show n.val = n.val * 1 + 0
      omega)

/-- `matmul D prec l r 0 (p, q) = Σ_k l(p, k) · r(q, k)` at the ideal values, for an [R, K] × [C, K] → [R, C] product
    contracting axis 1 of both operands. -/
theorem matmul_zero_nt_ix2 {R K C : Nat} {φ₁ φ₂ : FTy} (D : DotDims ⟨2, ![R, K]⟩ ⟨2, ![C, K]⟩ ⟨2, ![R, C]⟩)
    (hlc : D.lhsContracting = [1]) (hrc : D.rhsContracting = [1]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr0 : ∀ (i : (⟨2, ![R, C]⟩ : Shape).Idx) (c : D.contr.Idx), (D.rhsIdx i c 0).val = (i 1).val)
    (prec : Option ContractPrecision)
    (l : FVec Ideal ⟨2, ![R, K]⟩ φ₁) (r : FVec Ideal ⟨2, ![C, K]⟩ φ₂) (p : Fin R) (q : Fin C) :
    matmul D prec l r (constant ⟨2, ![R, C]⟩ .f32 0x00000000#32) (ix2 p q) = ∑ k : Fin K, l (ix2 p k) * r (ix2 q k) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 q k :=
    funext fun a => Fin.ext (by
      match a with
      | ⟨0, _⟩ => exact hr0 _ _
      | ⟨1, _⟩ => exact (D.rhsIdx_val_of_single hrc _ _).trans hk)
  rw [el, er]

end Cert.LibRow

end
-- ==== Proof.Leaf.lean ====
/-
  One branch's block of scores, read at an entry.

  For a block of 256 rows whose mixed features are f (256 × 512), a branch with weight w2 (512 × 512, one slab of the
  stacked weights), child weights wf (17 × 512) and bias bb (17) leaves, at row r and child i < 16,
      Σ_e (Σ_d f(r, d) · w2(e, d)) · wf(i, e) + bb(i):
  both products contract the second axis of both operands into a zero accumulator, the change of format in between is
  the identity on the extended reals, the bias row is repeated down the rows, and the last child's column is cut off.
  The root mixing of the block has the same shape: Σ_k x(r, k) · w1(d, k).
-/
import proofs.«143323_j40157944218107_1_alg».proof.Proof.Gen.KernelIdeal.Skeleton
import proofs.«143323_j40157944218107_1_alg».proof.Proof.LibRowOps
import Idealize.ShloMosaic.Lib.ValueLayout
import Idealize.ShloMosaic.Lib.Pipeline.Value

noncomputable section

open scoped BigOperators

namespace Cert.Routed.Leaf

open Idealize.ShloMosaic Idealize.ShloMosaic.ValueIdx Cert.KernelIdeal Cert.KernelIdeal.Gen

/-! ## The two products' index maps: the free axis of each operand follows the result's -/

theorem mix_lhs0 (i : S256x512.Idx) (q : dot_S256x512_S512x512_S256x512_1_1_0_0_n_n.contr.Idx) :
    (dot_S256x512_S512x512_S256x512_1_1_0_0_n_n.lhsIdx i q 0).val = (i 0).val := by
  unfold DotDims.lhsIdx
  rw [dif_neg (show ¬(0 : Fin S256x512.rank) ∈ dot_S256x512_S512x512_S256x512_1_1_0_0_n_n.lhsBatch by decide),
    dif_pos (show (0 : Fin S256x512.rank) ∈ dot_S256x512_S512x512_S256x512_1_1_0_0_n_n.lhsNonContracting by decide)]
  rfl

theorem mix_rhs0 (i : S256x512.Idx) (q : dot_S256x512_S512x512_S256x512_1_1_0_0_n_n.contr.Idx) :
    (dot_S256x512_S512x512_S256x512_1_1_0_0_n_n.rhsIdx i q 0).val = (i 1).val := by
  unfold DotDims.rhsIdx
  rw [dif_neg (show ¬(0 : Fin S512x512.rank) ∈ dot_S256x512_S512x512_S256x512_1_1_0_0_n_n.rhsBatch by decide),
    dif_pos (show (0 : Fin S512x512.rank) ∈ dot_S256x512_S512x512_S256x512_1_1_0_0_n_n.rhsNonContracting by decide)]
  rfl

theorem score_lhs0 (i : S256x17.Idx) (q : dot_S256x512_S17x512_S256x17_1_1_0_0_n_n.contr.Idx) :
    (dot_S256x512_S17x512_S256x17_1_1_0_0_n_n.lhsIdx i q 0).val = (i 0).val := by
  unfold DotDims.lhsIdx
  rw [dif_neg (show ¬(0 : Fin S256x512.rank) ∈ dot_S256x512_S17x512_S256x17_1_1_0_0_n_n.lhsBatch by decide),
    dif_pos (show (0 : Fin S256x512.rank) ∈ dot_S256x512_S17x512_S256x17_1_1_0_0_n_n.lhsNonContracting by decide)]
  rfl

theorem score_rhs0 (i : S256x17.Idx) (q : dot_S256x512_S17x512_S256x17_1_1_0_0_n_n.contr.Idx) :
    (dot_S256x512_S17x512_S256x17_1_1_0_0_n_n.rhsIdx i q 0).val = (i 1).val := by
  unfold DotDims.rhsIdx
  rw [dif_neg (show ¬(0 : Fin S17x512.rank) ∈ dot_S256x512_S17x512_S256x17_1_1_0_0_n_n.rhsBatch by decide),
    dif_pos (show (0 : Fin S17x512.rank) ∈ dot_S256x512_S17x512_S256x17_1_1_0_0_n_n.rhsNonContracting by decide)]
  rfl

/-- A 256 × 512 block times the transpose of a 512 × 512 weight: entry (r, e) is Σ_d l(r, d) · w(e, d). -/
theorem mix_apply {φ₁ φ₂ : FTy} (l : FVec Ideal S256x512 φ₁) (w : FVec Ideal S512x512 φ₂) (r : Fin 256) (e : Fin 512) :
    matmul dot_S256x512_S512x512_S256x512_1_1_0_0_n_n none l w (constant S256x512 .f32 0x00000000#32) (ix2 r e)
      = ∑ d : Fin 512, l (ix2 r d) * w (ix2 e d) :=
  Cert.LibRow.matmul_zero_nt_ix2 dot_S256x512_S512x512_S256x512_1_1_0_0_n_n rfl rfl rfl rfl mix_lhs0 mix_rhs0 none l w r e

/-- A 256 × 512 block times the transpose of a 17 × 512 weight: entry (r, i) is Σ_e l(r, e) · w(i, e). -/
theorem score_apply {φ₁ φ₂ : FTy} (l : FVec Ideal S256x512 φ₁) (w : FVec Ideal S17x512 φ₂) (r : Fin 256) (i : Fin 17) :
    matmul dot_S256x512_S17x512_S256x17_1_1_0_0_n_n none l w (constant S256x17 .f32 0x00000000#32) (ix2 r i)
      = ∑ e : Fin 512, l (ix2 r e) * w (ix2 i e) :=
  Cert.LibRow.matmul_zero_nt_ix2 dot_S256x512_S17x512_S256x17_1_1_0_0_n_n rfl rfl rfl rfl score_lhs0 score_rhs0 none l w r i

/-- The root mixing of a block of rows: the stored features at (r, d) are Σ_k x(r, k) · w1(d, k). -/
theorem stem_apply (x : Vec Ideal S256x512 .f32) (w1 : Vec Ideal S512x512 .bf16) (r : Fin 256) (d : Fin 512) :
    k0_pay3 (F := Ideal) x w1 (ix2 r d) = ∑ k : Fin 512, x (ix2 r k) * w1 (ix2 d k) := by
  unfold k0_pay3
  refine (congrFun (shapeCast_self _ shapeCasts_S256x512_S256x512) (ix2 r d)).trans ?_
  refine (mix_apply _ _ r d).trans ?_
  refine Finset.sum_congr rfl fun k _ => congrArg₂ (· * ·) ?_ ?_
  · exact congrFun (shapeCast_self x shapeCasts_S256x512_S256x512) (ix2 r k)
  · exact congrFun (shapeCast_self w1 shapeCasts_S512x512_S512x512) (ix2 d k)

/-- One branch's scores of a block of rows at row r and child i (the column kept is i' = i, one of the first 16). -/
theorem branch_apply (f : FVec Ideal S256x512 .bf16) (w2 : Vec Ideal S1x512x512 .bf16) (wf : Vec Ideal S1x17x512 .bf16)
    (bb : Vec Ideal S1x17 .f32) (r : Fin 256) (i : Fin 16) (i' : Fin 17) (hi : i'.val = i.val) :
    k0_pay4 (F := Ideal) f w2 wf bb (ix2 r i)
      = (∑ e : Fin 512, (∑ d : Fin 512, f (ix2 r d) * w2 (ix3 (0 : Fin 1) e d)) * wf (ix3 (0 : Fin 1) i' e))
        + bb (ix2 (0 : Fin 1) i') := by
  unfold k0_pay4
  refine (slice2_axis1_apply 0 _ slices_S256x17_o0_0_S256x16 r i i' (by omega)).trans ?_
  refine congrArg₂ (· + ·) ?_ ?_
  · refine (score_apply _ _ r i').trans ?_
    refine Finset.sum_congr rfl fun e _ => congrArg₂ (· * ·) ?_ ?_
    · refine (mix_apply f _ r e).trans ?_
      exact Finset.sum_congr rfl fun d _ => congrArg (f (ix2 r d) * ·) (shapeCast_1ab_ab_apply w2 _ e d)
    · exact shapeCast_1ab_ab_apply wf _ i' e
  · refine (broadcastTo_1b_ab_apply _ broadcasts_S1x17_S256x17 r i').trans ?_
    refine (shapeCast_a_1a_apply _ shapeCasts_S17_S1x17 (0 : Fin 1) i').trans ?_
    exact shapeCast_1a_a_apply bb shapeCasts_S1x17_S17 i'

end Cert.Routed.Leaf

end
-- ==== Proof.Block.lean ====
/-
  What the body leaves in its block of the output: the class scores of the block's 256 rows.

  The body first stores the root mixing of the block's rows and reads it back, then, branch by branch, stores that
  branch's 16 kept scores into the 16 columns from 16·b on.  Every stored piece is therefore the matching 256 × 16 tile
  of ONE function of the block index — `Cert.Routed.scores` of the block of rows and the four weight arrays — and the
  sixteen tiles cover the block, so the block holds that function.  (Three of the sixteen stores take their operands
  through intermediate names; they are the same expression.)
-/
import proofs.«143323_j40157944218107_1_alg».proof.Proof.Gen.KernelIdeal.Frame
import proofs.«143323_j40157944218107_1_alg».proof.Proof.Spec
import proofs.«143323_j40157944218107_1_alg».proof.Proof.Leaf
import Idealize.ShloMosaic.Lib.Pipeline.Value
import Idealize.ShloMosaic.Lib.ValueIdx
import Idealize.ShloMosaic.Lib.Tactic

set_option maxRecDepth 16384

noncomputable section

open scoped BigOperators

namespace Cert.Routed.Block

open Idealize.ShloMosaic Idealize.ShloMosaic.TcCoe Idealize.SL.Sem Idealize.ShloMosaic.ValueIdx
open Cert.KernelIdeal Cert.KernelIdeal.Gen

theorem zero2 : (![0, 0] : Fin 2 → Nat) = fun _ => 0 := funext fun a => by fin_cases a <;> rfl

/-! ## The sixteen stored expressions are one expression -/

section Forms
variable (a : Vec Ideal S256x512 .bf16) (b : Vec Ideal S1x512x512 .bf16) (c : Vec Ideal S1x17x512 .bf16) (d : Vec Ideal S1x17 .f32)

theorem form2 : k0_pay2 (F := Ideal) a b c d = k0_pay4 a b c d := rfl
theorem form7 : k0_pay7 (F := Ideal) a b c d = k0_pay4 a b c d := rfl
theorem form12 : k0_pay12 (F := Ideal) a b c d = k0_pay4 a b c d := rfl
theorem form13 : k0_pay13 (F := Ideal) a b c d = k0_pay4 a b c d := rfl
theorem form14 : k0_pay14 (F := Ideal) a b c d = k0_pay4 a b c d := rfl
theorem form15 : k0_pay15 (F := Ideal) a b c d = k0_pay4 a b c d := rfl
theorem form16 : k0_pay16 (F := Ideal) a b c d = k0_pay4 a b c d := rfl
theorem form17 : k0_pay17 (F := Ideal) a b c d = k0_pay4 a b c d := rfl
theorem form20 : k0_pay20 (F := Ideal) a b c d = k0_pay4 a b c d := rfl
theorem form24 : k0_pay24 (F := Ideal) a b c d = k0_pay4 a b c d := rfl
theorem form6 : k0_pay6 (F := Ideal) (k0_pay5 a b) c d = k0_pay4 a b c d := rfl
theorem form19 : k0_pay19 (F := Ideal) (k0_pay18 a b) c d = k0_pay4 a b c d := rfl
theorem form11 : k0_pay11 (F := Ideal) (k0_pay8 a b) (k0_pay9 c) (k0_pay10 d) = k0_pay4 a b c d := rfl
theorem form23 : k0_pay23 (F := Ideal) (k0_pay21 a b) (k0_pay22 c) d = k0_pay4 a b c d := rfl
theorem form1 : k0_pay1 (F := Ideal) (k0_pay25 a b c) (k0_pay26 d) = k0_pay4 a b c d := rfl
end Forms

/-! ## The loads: a branch's slab of each stacked array, and the stored features read back -/

/-- The load of branch b's 512 × 512 slab of the stacked branch weights reads, at (0, e, d), the array at (b, e, d). -/
theorem slab_w2 (arg : Memref sig .tc .vmem S16x512x512 .bf16) (harg : arg.IsWhole) (x2 : Vec Ideal S16x512x512 .bf16)
    (b : Fin 16) (o : Nat) (ho : o = b.val) (inb : ∀ a, (![o, 0, 0] : Fin 3 → Nat) a + (![1, 512, 512] : Fin 3 → Nat) a ≤ S16x512x512.size a)
    (e d : Fin 512) :
    View.readAt (Elt Ideal) arg.view (Rect.unit (s := S16x512x512) ![o, 0, 0] ![1, 512, 512] inb).toLoadRect (harg.unread x2) (ix3 (0 : Fin 1) e d)
      = x2 (ix3 b e d) := by
  rw [View.readAt_eq_ld, harg.read_unread]
  refine congrArg x2 (funext fun a => Fin.ext ?_)
  match a with
  | ⟨0, _⟩ => show o + 1 * 0 = b.val; omega
  | ⟨1, _⟩ => show 0 + 1 * e.val = e.val; omega
  | ⟨2, _⟩ => show 0 + 1 * d.val = d.val; omega

/-- The load of branch b's 17 × 512 slab of the stacked child weights reads, at (0, i, e), the array at (b, i, e). -/
theorem slab_wf (arg : Memref sig .tc .vmem S16x17x512 .bf16) (harg : arg.IsWhole) (x3 : Vec Ideal S16x17x512 .bf16)
    (b : Fin 16) (o : Nat) (ho : o = b.val) (inb : ∀ a, (![o, 0, 0] : Fin 3 → Nat) a + (![1, 17, 512] : Fin 3 → Nat) a ≤ S16x17x512.size a)
    (i : Fin 17) (e : Fin 512) :
    View.readAt (Elt Ideal) arg.view (Rect.unit (s := S16x17x512) ![o, 0, 0] ![1, 17, 512] inb).toLoadRect (harg.unread x3) (ix3 (0 : Fin 1) i e)
      = x3 (ix3 b i e) := by
  rw [View.readAt_eq_ld, harg.read_unread]
  refine congrArg x3 (funext fun a => Fin.ext ?_)
  match a with
  | ⟨0, _⟩ => show o + 1 * 0 = b.val; omega
  | ⟨1, _⟩ => show 0 + 1 * i.val = i.val; omega
  | ⟨2, _⟩ => show 0 + 1 * e.val = e.val; omega

/-- The load of branch b's row of the stacked biases reads, at (0, i), the array at (b, i). -/
theorem slab_bias (arg : Memref sig .tc .vmem S16x17 .f32) (harg : arg.IsWhole) (x4 : Vec Ideal S16x17 .f32)
    (b : Fin 16) (o : Nat) (ho : o = b.val) (inb : ∀ a, (![o, 0] : Fin 2 → Nat) a + (![1, 17] : Fin 2 → Nat) a ≤ S16x17.size a)
    (i : Fin 17) :
    View.readAt (Elt Ideal) arg.view (Rect.unit (s := S16x17) ![o, 0] ![1, 17] inb).toLoadRect (harg.unread x4) (ix2 (0 : Fin 1) i)
      = x4 (ix2 b i) := by
  rw [View.readAt_eq_ld, harg.read_unread]
  refine congrArg x4 (funext fun a => Fin.ext ?_)
  match a with
  | ⟨0, _⟩ => show o + 1 * 0 = b.val; omega
  | ⟨1, _⟩ => show 0 + 1 * i.val = i.val; omega

/-- The features the body stores in its scratch block and reads back: at (r, d), Σ_k x(r, k) · w1(d, k). -/
theorem stem_read (arg1 : Memref sig .tc .vmem S256x512 .f32) (harg1 : arg1.IsWhole) (arg2 : Memref sig .tc .vmem S512x512 .bf16)
    (harg2 : arg2.IsWhole) (arg7 : Memref sig .tc .vmem S256x512 .bf16) (x0 : Vec Ideal S256x512 .f32) (x1 : Vec Ideal S512x512 .bf16)
    (inb0 : ∀ a, (![0, 0] : Fin 2 → Nat) a + S256x512.size a ≤ S256x512.size a)
    (inb1 : ∀ a, (![0, 0] : Fin 2 → Nat) a + S512x512.size a ≤ S512x512.size a) (r : Fin 256) (d : Fin 512) :
    (arg7.view.readCov (Val := Elt Ideal)
        [⟨Rect.unit (s := S256x512) ![0, 0] S256x512.size inb0,
          k0_pay3 (F := Ideal) (View.readAt (Elt Ideal) arg1.view (Rect.unit (s := S256x512) ![0, 0] S256x512.size inb0).toLoadRect (harg1.unread x0))
            (View.readAt (Elt Ideal) arg2.view (Rect.unit (s := S512x512) ![0, 0] S512x512.size inb1).toLoadRect (harg2.unread x1))⟩]
        (Rect.unit (s := S256x512) ![0, 0] S256x512.size inb0).toLoadRect (ix2 r d) : EReal)
      = ∑ k : Fin 512, x0 (ix2 r k) * x1 (ix2 d k) := by
  rw [View.readCov_unit_zero (S := S256x512) _ zero2]
  simp only [View.readAt_eq_ld, harg1.read_unread, harg2.read_unread, View.ld_unit_zero (S := S256x512) zero2,
    View.ld_unit_zero (S := S512x512) zero2]
  exact Leaf.stem_apply x0 x1 r d

/-! ## One stored tile is the matching tile of the scores -/

/-- Branch b's stored tile (columns 16·b to 16·b + 15), computed from the block's features f and the branch's slabs,
    is the tile of `scores` its rectangle names. -/
theorem tile_apply (x0 : Vec Ideal S256x512 .f32) (x1 : Vec Ideal S512x512 .bf16) (x2 : Vec Ideal S16x512x512 .bf16)
    (x3 : Vec Ideal S16x17x512 .bf16) (x4 : Vec Ideal S16x17 .f32) (b : Fin 16) (o : Nat) (ho : o = 16 * b.val)
    (inb : ∀ a, (![0, o] : Fin 2 → Nat) a + (![256, 16] : Fin 2 → Nat) a ≤ S256x256.size a)
    (f : FVec Ideal S256x512 .bf16) (w2 : Vec Ideal S1x512x512 .bf16) (wf : Vec Ideal S1x17x512 .bf16) (bb : Vec Ideal S1x17 .f32)
    (hf : ∀ (r : Fin 256) (d : Fin 512), f (ix2 r d) = ∑ k : Fin 512, x0 (ix2 r k) * x1 (ix2 d k))
    (hw2 : ∀ e d : Fin 512, w2 (ix3 (0 : Fin 1) e d) = x2 (ix3 b e d))
    (hwf : ∀ (i : Fin 17) (e : Fin 512), wf (ix3 (0 : Fin 1) i e) = x3 (ix3 b i e))
    (hbb : ∀ i : Fin 17, bb (ix2 (0 : Fin 1) i) = x4 (ix2 b i))
    (x : (Rect.unit (s := S256x256) ![0, o] ![256, 16] inb).shape.Idx) :
    k0_pay4 (F := Ideal) f w2 wf bb x = scores x0 x1 x2 x3 x4 ((Rect.unit (s := S256x256) ![0, o] ![256, 16] inb).emb x) := by
  obtain ⟨r, i, rfl⟩ : ∃ (r : Fin 256) (i : Fin 16), x = ix2 r i := ⟨x 0, x 1, eq_ix2 x⟩
  have hs := scores_apply x0 x1 x2 x3 x4 ((Rect.unit (s := S256x256) ![0, o] ![256, 16] inb).emb (ix2 r i)) r b
    ⟨i.val, by omega⟩ (by show 0 + 1 * r.val = r.val; omega) (by show o + 1 * i.val = 16 * b.val + i.val; omega) i.isLt
  refine Eq.trans ?_ hs.symm
  refine (Leaf.branch_apply f w2 wf bb r i ⟨i.val, by omega⟩ rfl).trans ?_
  unfold cell
  refine congrArg₂ (· + ·) (Finset.sum_congr rfl fun e _ => congrArg₂ (· * ·) (Finset.sum_congr rfl fun d _ => ?_) (hwf _ e)) (hbb _)
  rw [hf, hw2]

/-! ## The block -/

/-- The output's block after the body: the class scores of the block of rows x0 under the weights x1 … x4. -/
theorem block_scores (c : Dev nD) (i : grid0.Coords) (arg1 : Memref sig .tc .vmem S256x512 .f32) (harg1 : arg1.IsWhole)
    (arg2 : Memref sig .tc .vmem S512x512 .bf16) (harg2 : arg2.IsWhole) (arg3 : Memref sig .tc .vmem S16x512x512 .bf16)
    (harg3 : arg3.IsWhole) (arg4 : Memref sig .tc .vmem S16x17x512 .bf16) (harg4 : arg4.IsWhole)
    (arg5 : Memref sig .tc .vmem S16x17 .f32) (harg5 : arg5.IsWhole) (arg6 : Memref sig .tc .vmem S256x256 .f32)
    (harg6 : arg6.IsWhole) (arg7 : Memref sig .tc .vmem S256x512 .bf16) (harg7 : arg7.IsWhole)
    (x0 : Vec Ideal S256x512 .f32) (x1 : Vec Ideal S512x512 .bf16) (x2 : Vec Ideal S16x512x512 .bf16)
    (x3 : Vec Ideal S16x17x512 .bf16) (x4 : Vec Ideal S16x17 .f32) :
    out0_A_5 (F := Ideal) c i arg1 harg1 arg2 harg2 arg3 harg3 arg4 harg4 arg5 harg5 arg6 harg6 arg7 harg7 x0 x1 x2 x3 x4
      = scores x0 x1 x2 x3 x4 := by
  unfold out0_A_5
  rw [View.read_writes_eq_canon _ _ _ (cover0_A_5 c i arg1 harg1 arg2 harg2 arg3 harg3 arg4 harg4 arg5 harg5 arg6 harg6 arg7 harg7 x0 x1 x2 x3 x4)]
  funext y
  refine View.canon_apply_of_pieces (scores x0 x1 x2 x3 x4) _ ?_ y
    (cover0_A_5 c i arg1 harg1 arg2 harg2 arg3 harg3 arg4 harg4 arg5 harg5 arg6 harg6 arg7 harg7 x0 x1 x2 x3 x4 y)
  unfold kernelRun0_A
  dsimp only
  sl_unfold_words
  have hf := stem_read arg1 harg1 arg2 harg2 arg7 x0 x1 inb_S256x512_S256x512_0_0 inb_S512x512_S512x512_0_0
  intro p hp
  simp only [List.mem_cons, List.mem_nil_iff, or_false] at hp
  rcases hp with rfl | rfl | rfl | rfl | rfl | rfl | rfl | rfl | rfl | rfl | rfl | rfl | rfl | rfl | rfl | rfl
  · intro x
    refine (congrFun (form2 _ _ _ _) x).trans ?_
    exact tile_apply x0 x1 x2 x3 x4 (15 : Fin 16) 240 rfl inb_S256x256_S256x16_0_240 _ _ _ _ hf (slab_w2 arg3 harg3 x2 15 15 rfl inb_S16x512x512_S1x512x512_15_0_0)
      (slab_wf arg4 harg4 x3 15 15 rfl inb_S16x17x512_S1x17x512_15_0_0) (slab_bias arg5 harg5 x4 15 15 rfl inb_S16x17_S1x17_15_0) x
  · intro x
    refine (congrFun (form1 _ _ _ _) x).trans ?_
    exact tile_apply x0 x1 x2 x3 x4 (14 : Fin 16) 224 rfl inb_S256x256_S256x16_0_224 _ _ _ _ hf (slab_w2 arg3 harg3 x2 14 14 rfl inb_S16x512x512_S1x512x512_14_0_0)
      (slab_wf arg4 harg4 x3 14 14 rfl inb_S16x17x512_S1x17x512_14_0_0) (slab_bias arg5 harg5 x4 14 14 rfl inb_S16x17_S1x17_14_0) x
  · intro x
    refine (congrFun (form24 _ _ _ _) x).trans ?_
    exact tile_apply x0 x1 x2 x3 x4 (13 : Fin 16) 208 rfl inb_S256x256_S256x16_0_208 _ _ _ _ hf (slab_w2 arg3 harg3 x2 13 13 rfl inb_S16x512x512_S1x512x512_13_0_0)
      (slab_wf arg4 harg4 x3 13 13 rfl inb_S16x17x512_S1x17x512_13_0_0) (slab_bias arg5 harg5 x4 13 13 rfl inb_S16x17_S1x17_13_0) x
  · intro x
    refine (congrFun (form23 _ _ _ _) x).trans ?_
    exact tile_apply x0 x1 x2 x3 x4 (12 : Fin 16) 192 rfl inb_S256x256_S256x16_0_192 _ _ _ _ hf (slab_w2 arg3 harg3 x2 12 12 rfl inb_S16x512x512_S1x512x512_12_0_0)
      (slab_wf arg4 harg4 x3 12 12 rfl inb_S16x17x512_S1x17x512_12_0_0) (slab_bias arg5 harg5 x4 12 12 rfl inb_S16x17_S1x17_12_0) x
  · intro x
    refine (congrFun (form20 _ _ _ _) x).trans ?_
    exact tile_apply x0 x1 x2 x3 x4 (11 : Fin 16) 176 rfl inb_S256x256_S256x16_0_176 _ _ _ _ hf (slab_w2 arg3 harg3 x2 11 11 rfl inb_S16x512x512_S1x512x512_11_0_0)
      (slab_wf arg4 harg4 x3 11 11 rfl inb_S16x17x512_S1x17x512_11_0_0) (slab_bias arg5 harg5 x4 11 11 rfl inb_S16x17_S1x17_11_0) x
  · intro x
    refine (congrFun (form19 _ _ _ _) x).trans ?_
    exact tile_apply x0 x1 x2 x3 x4 (10 : Fin 16) 160 rfl inb_S256x256_S256x16_0_160 _ _ _ _ hf (slab_w2 arg3 harg3 x2 10 10 rfl inb_S16x512x512_S1x512x512_10_0_0)
      (slab_wf arg4 harg4 x3 10 10 rfl inb_S16x17x512_S1x17x512_10_0_0) (slab_bias arg5 harg5 x4 10 10 rfl inb_S16x17_S1x17_10_0) x
  · intro x
    refine (congrFun (form17 _ _ _ _) x).trans ?_
    exact tile_apply x0 x1 x2 x3 x4 (9 : Fin 16) 144 rfl inb_S256x256_S256x16_0_144 _ _ _ _ hf (slab_w2 arg3 harg3 x2 9 9 rfl inb_S16x512x512_S1x512x512_9_0_0)
      (slab_wf arg4 harg4 x3 9 9 rfl inb_S16x17x512_S1x17x512_9_0_0) (slab_bias arg5 harg5 x4 9 9 rfl inb_S16x17_S1x17_9_0) x
  · intro x
    refine (congrFun (form16 _ _ _ _) x).trans ?_
    exact tile_apply x0 x1 x2 x3 x4 (8 : Fin 16) 128 rfl inb_S256x256_S256x16_0_128 _ _ _ _ hf (slab_w2 arg3 harg3 x2 8 8 rfl inb_S16x512x512_S1x512x512_8_0_0)
      (slab_wf arg4 harg4 x3 8 8 rfl inb_S16x17x512_S1x17x512_8_0_0) (slab_bias arg5 harg5 x4 8 8 rfl inb_S16x17_S1x17_8_0) x
  · intro x
    refine (congrFun (form15 _ _ _ _) x).trans ?_
    exact tile_apply x0 x1 x2 x3 x4 (7 : Fin 16) 112 rfl inb_S256x256_S256x16_0_112 _ _ _ _ hf (slab_w2 arg3 harg3 x2 7 7 rfl inb_S16x512x512_S1x512x512_7_0_0)
      (slab_wf arg4 harg4 x3 7 7 rfl inb_S16x17x512_S1x17x512_7_0_0) (slab_bias arg5 harg5 x4 7 7 rfl inb_S16x17_S1x17_7_0) x
  · intro x
    refine (congrFun (form14 _ _ _ _) x).trans ?_
    exact tile_apply x0 x1 x2 x3 x4 (6 : Fin 16) 96 rfl inb_S256x256_S256x16_0_96 _ _ _ _ hf (slab_w2 arg3 harg3 x2 6 6 rfl inb_S16x512x512_S1x512x512_6_0_0)
      (slab_wf arg4 harg4 x3 6 6 rfl inb_S16x17x512_S1x17x512_6_0_0) (slab_bias arg5 harg5 x4 6 6 rfl inb_S16x17_S1x17_6_0) x
  · intro x
    refine (congrFun (form13 _ _ _ _) x).trans ?_
    exact tile_apply x0 x1 x2 x3 x4 (5 : Fin 16) 80 rfl inb_S256x256_S256x16_0_80 _ _ _ _ hf (slab_w2 arg3 harg3 x2 5 5 rfl inb_S16x512x512_S1x512x512_5_0_0)
      (slab_wf arg4 harg4 x3 5 5 rfl inb_S16x17x512_S1x17x512_5_0_0) (slab_bias arg5 harg5 x4 5 5 rfl inb_S16x17_S1x17_5_0) x
  · intro x
    refine (congrFun (form12 _ _ _ _) x).trans ?_
    exact tile_apply x0 x1 x2 x3 x4 (4 : Fin 16) 64 rfl inb_S256x256_S256x16_0_64 _ _ _ _ hf (slab_w2 arg3 harg3 x2 4 4 rfl inb_S16x512x512_S1x512x512_4_0_0)
      (slab_wf arg4 harg4 x3 4 4 rfl inb_S16x17x512_S1x17x512_4_0_0) (slab_bias arg5 harg5 x4 4 4 rfl inb_S16x17_S1x17_4_0) x
  · intro x
    refine (congrFun (form11 _ _ _ _) x).trans ?_
    exact tile_apply x0 x1 x2 x3 x4 (3 : Fin 16) 48 rfl inb_S256x256_S256x16_0_48 _ _ _ _ hf (slab_w2 arg3 harg3 x2 3 3 rfl inb_S16x512x512_S1x512x512_3_0_0)
      (slab_wf arg4 harg4 x3 3 3 rfl inb_S16x17x512_S1x17x512_3_0_0) (slab_bias arg5 harg5 x4 3 3 rfl inb_S16x17_S1x17_3_0) x
  · intro x
    refine (congrFun (form7 _ _ _ _) x).trans ?_
    exact tile_apply x0 x1 x2 x3 x4 (2 : Fin 16) 32 rfl inb_S256x256_S256x16_0_32 _ _ _ _ hf (slab_w2 arg3 harg3 x2 2 2 rfl inb_S16x512x512_S1x512x512_2_0_0)
      (slab_wf arg4 harg4 x3 2 2 rfl inb_S16x17x512_S1x17x512_2_0_0) (slab_bias arg5 harg5 x4 2 2 rfl inb_S16x17_S1x17_2_0) x
  · intro x
    refine (congrFun (form6 _ _ _ _) x).trans ?_
    exact tile_apply x0 x1 x2 x3 x4 (1 : Fin 16) 16 rfl inb_S256x256_S256x16_0_16 _ _ _ _ hf (slab_w2 arg3 harg3 x2 1 1 rfl inb_S16x512x512_S1x512x512_1_0_0)
      (slab_wf arg4 harg4 x3 1 1 rfl inb_S16x17x512_S1x17x512_1_0_0) (slab_bias arg5 harg5 x4 1 1 rfl inb_S16x17_S1x17_1_0) x
  · intro x
    exact tile_apply x0 x1 x2 x3 x4 (0 : Fin 16) 0 rfl inb_S256x256_S256x16_0_0 _ _ _ _ hf (slab_w2 arg3 harg3 x2 0 0 rfl inb_S16x512x512_S1x512x512_0_0_0)
      (slab_wf arg4 harg4 x3 0 0 rfl inb_S16x17x512_S1x17x512_0_0_0) (slab_bias arg5 harg5 x4 0 0 rfl inb_S16x17_S1x17_0_0) x

end Cert.Routed.Block

end
-- ==== Proof.Whole.lean ====
/-
  From blocks to the array: after the run, the kernel's output array holds the class scores of the whole batch.

  Grid point t works on rows 256·t … 256·t + 255: its block of the batch is those rows, its blocks of the four weight
  arrays are the arrays themselves, and the block it writes back is rows 256·t … of the output.  The block a point
  leaves is the scores of ITS rows (the block lemma), a score depends only on its own row, so what point t writes back
  is block t of the scores of the whole batch; the 32 blocks cover the 8192 rows, hence the array ends holding them.
-/
import proofs.«143323_j40157944218107_1_alg».proof.Proof.Block
import Idealize.ShloMosaic.Lib.Pipeline.Value

set_option maxRecDepth 16384

noncomputable section

open scoped BigOperators

namespace Cert.Routed.Whole

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The class scores of the whole batch, from the five arrays as the region finds them. -/
def batchScores (c : Dev nD) : S8192x256.Idx → EReal :=
  scores (V m c main_v0) (V m c main_v1) (V m c main_v2) (V m c main_v3) (V m c main_arg7)

/-- The index maps over the grid: the batch and the output move one block of rows per point, the weights stay. -/
theorem idx_facts : ∀ t : Fin cfg0.N,
    win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0 :=
  (by decide +kernel : ∀ t : Fin grid0.N, _)

/-- Point t's block of the batch is rows 256·t onward. -/
theorem rows_block (c : Dev nD) (t : Fin cfg0.N) (r : Fin 256) (k : Fin 512) (r' : Fin 8192) (hr : r'.val = 256 * t.val + r.val) :
    (iblk m c 0 t : Vec Ideal S256x512 .f32) (ix2 r k) = V m c main_v0 (ix2 r' k) := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 256 + 1 * r.val = r'.val; rw [e0]; omega
  | ⟨1, _⟩ => show win0_0.index t (1 : Fin 2) * 512 + 1 * k.val = k.val; rw [e1]; omega

/-- Every point's block of the root weight is the whole array, -/
theorem root_block (c : Dev nD) (t : Fin cfg0.N) (d k : Fin 512) :
    (iblk m c 1 t : Vec Ideal S512x512 .bf16) (ix2 d k) = V m c main_v1 (ix2 d k) := by
  obtain ⟨-, -, -, -, e0, e1, -⟩ := idx_facts t
  unfold iblk
  rw [View.read_apply]
  show V m c main_v1 _ = V m c main_v1 _
  congr 1
  funext a
  apply Fin.ext
  match a with
  | ⟨0, _⟩ => show win0_1.index t (0 : Fin 2) * 512 + 1 * d.val = d.val; rw [e0]; omega
  | ⟨1, _⟩ => show win0_1.index t (1 : Fin 2) * 512 + 1 * k.val = k.val; rw [e1]; omega

/-- of the stacked branch weights, -/
theorem branch_block (c : Dev nD) (t : Fin cfg0.N) (b : Fin 16) (e d : Fin 512) :
    (iblk m c 2 t : Vec Ideal S16x512x512 .bf16) (ix3 b e d) = V m c main_v2 (ix3 b e d) := by
  obtain ⟨-, -, -, -, -, -, e0, e1, e2, -⟩ := idx_facts t
  unfold iblk
  rw [View.read_apply]
  show V m c main_v2 _ = V m c main_v2 _
  congr 1
  funext a
  apply Fin.ext
  match a with
  | ⟨0, _⟩ => show win0_2.index t (0 : Fin 3) * 16 + 1 * b.val = b.val; rw [e0]; omega
  | ⟨1, _⟩ => show win0_2.index t (1 : Fin 3) * 512 + 1 * e.val = e.val; rw [e1]; omega
  | ⟨2, _⟩ => show win0_2.index t (2 : Fin 3) * 512 + 1 * d.val = d.val; rw [e2]; omega

/-- of the stacked child weights, -/
theorem child_block (c : Dev nD) (t : Fin cfg0.N) (b : Fin 16) (i : Fin 17) (e : Fin 512) :
    (iblk m c 3 t : Vec Ideal S16x17x512 .bf16) (ix3 b i e) = V m c main_v3 (ix3 b i e) := by
  obtain ⟨-, -, -, -, -, -, -, -, -, e0, e1, e2, -⟩ := idx_facts t
  unfold iblk
  rw [View.read_apply]
  show V m c main_v3 _ = V m c main_v3 _
  congr 1
  funext a
  apply Fin.ext
  match a with
  | ⟨0, _⟩ => show win0_3.index t (0 : Fin 3) * 16 + 1 * b.val = b.val; rw [e0]; omega
  | ⟨1, _⟩ => show win0_3.index t (1 : Fin 3) * 17 + 1 * i.val = i.val; rw [e1]; omega
  | ⟨2, _⟩ => show win0_3.index t (2 : Fin 3) * 512 + 1 * e.val = e.val; rw [e2]; omega

/-- and of the stacked biases. -/
theorem bias_block (c : Dev nD) (t : Fin cfg0.N) (b : Fin 16) (i : Fin 17) :
    (iblk m c 4 t : Vec Ideal S16x17 .f32) (ix2 b i) = V m c main_arg7 (ix2 b i) := by
  obtain ⟨-, -, -, -, -, -, -, -, -, -, -, -, e0, e1⟩ := idx_facts t
  unfold iblk
  rw [View.read_apply]
  show V m c main_arg7 _ = V m c main_arg7 _
  congr 1
  funext a
  apply Fin.ext
  match a with
  | ⟨0, _⟩ => show win0_4.index t (0 : Fin 2) * 16 + 1 * b.val = b.val; rw [e0]; omega
  | ⟨1, _⟩ => show win0_4.index t (1 : Fin 2) * 17 + 1 * i.val = i.val; rw [e1]; omega

/-- What point t writes back is block t of the scores of the whole batch. -/
theorem flushed_eq (c : Dev nD) (t : Fin cfg0.N) :
    (dats m 0 c).flushed 5 t = ((cfg0.win 5).blk t).view.read (Elt Ideal) (batchScores m c) := by
  show (cfg0.win 5).cut (grid0.coords t) ((dats m 0 c).after 5 t) = _
  rw [after0_5]
  unfold outsAt0
  rw [Block.block_scores]
  funext j
  obtain ⟨r, q, rfl⟩ : ∃ (r : Fin 256) (q : Fin 256), j = ix2 r q := ⟨j 0, j 1, eq_ix2 j⟩
  obtain ⟨-, -, e2, e3, -⟩ := idx_facts t
  have ht : t.val < 32 := lt_of_lt_of_eq t.isLt N_0
  have hq : q.val < 256 := q.isLt
  have hr : r.val < 256 := r.isLt
  show scores (R := 256) (iblk m c 0 t) (iblk m c 1 t) (iblk m c 2 t) (iblk m c 3 t) (iblk m c 4 t) (ix2 r q)
    = batchScores m c (((cfg0.win 5).blk t).view.emb (ix2 r q))
  refine (scores_apply _ _ _ _ _ (ix2 r q) r ⟨q.val / 16, by omega⟩ ⟨q.val % 16, by omega⟩ rfl
    (by show q.val = 16 * (q.val / 16) + q.val % 16; omega) (by show q.val % 16 < 16; omega)).trans ?_
  unfold batchScores
  refine Eq.trans ?_ (scores_apply _ _ _ _ _ (((cfg0.win 5).blk t).view.emb (ix2 r q)) ⟨256 * t.val + r.val, by omega⟩
    ⟨q.val / 16, by omega⟩ ⟨q.val % 16, by omega⟩ ?_ ?_ ?_).symm
  · exact cell_congr _ _ _ _ _ _ _ _ _ _ r _ _ _ (fun k => rows_block m c t r k _ rfl) (root_block m c t)
      (branch_block m c t _) (child_block m c t _ _) (bias_block m c t _ _)
  · show win0_5.index t (0 : Fin 2) * 256 + 1 * r.val = 256 * t.val + r.val; rw [e2]; omega
  · show win0_5.index t (1 : Fin 2) * 256 + 1 * q.val = 16 * (q.val / 16) + q.val % 16; rw [e3]; omega
  · show q.val % 16 < 16; omega

/-- An index of the output array is in point t's block iff its row is one of the block's 256 rows. -/
theorem mem_blk (t : Fin cfg0.N) (i : S8192x256.Idx) :
    i ∈ ((cfg0.win 5).blk t).view.set ↔ ∀ a : Fin 2, win0_5.index t a * S256x256.size a ≤ (i a).val
      ∧ (i a).val < win0_5.index t a * S256x256.size a + S256x256.size a := by
  show i ∈ ((View.whole main_v4).slice (win0_5.rect t)).set ↔ _
  rw [View.set_slice_whole, Rect.mem_set_unit]
  exact Iff.rfl

/-- Every point's block index, the other way round: the point that works on block n. -/
theorem idx_onto : ∀ n : Fin 32, ∃ t : Fin cfg0.N, win0_5.index t = ![n.val, 0] :=
  (by decide +kernel : ∀ n : Fin 32, ∃ t : Fin grid0.N, win0_5.index t = ![n.val, 0])

/-- The output array after the run: the class scores of the whole batch. -/
theorem final (c : Dev nD) : (dats m 0 c).arrAt 5 cfg0.N = batchScores m c :=
  (dats m 0 c).arrAt_eq_of_cover 5 (batchScores m c) (fun t _ => flushed_eq m c t) fun i => by
    have h0 : (i 0).val < 8192 := (i 0).isLt
    have h1 : (i 1).val < 256 := (i 1).isLt
    obtain ⟨t, ht⟩ := idx_onto ⟨(i 0).val / 256, by omega⟩
    have q0 : win0_5.index t (0 : Fin 2) = (i 0).val / 256 := congrFun ht 0
    have q1 : win0_5.index t (1 : Fin 2) = 0 := congrFun ht 1
    refine ⟨t, flush0_5 t, ?_⟩
    rw [mem_blk]
    intro a
    match a with
    | ⟨0, _⟩ => show win0_5.index t (0 : Fin 2) * 256 ≤ (i 0).val ∧ (i 0).val < win0_5.index t (0 : Fin 2) * 256 + 256; omega
    | ⟨1, _⟩ => show win0_5.index t (1 : Fin 2) * 256 ≤ (i 1).val ∧ (i 1).val < win0_5.index t (1 : Fin 2) * 256 + 256; omega

end Cert.Routed.Whole

end
-- ==== Proof.KernelRun.lean ====
/-
  The kernel's run, read: its two results as functions of the argument arrays.

  Before the region the program reshapes the batch to 8192 × 512 and changes the format of three weight arrays, which
  on the extended reals changes nothing; after it, it appends one column of zeros to the region's output and returns a
  zero scalar.  With the region's output array known (the class scores of the batch), the first result is those scores
  with the zero column appended, and the second is the zero constant.
-/
import proofs.«143323_j40157944218107_1_alg».proof.Proof.Whole
import Idealize.ShloMosaic.Lib.StableHlo.Run
import Idealize.ShloMosaic.Lib.Tactic

set_option maxRecDepth 16384

noncomputable section

open scoped BigOperators

namespace Cert.Routed.Run

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-! ## The arrays as the region finds them -/

theorem V_batch (c : Dev nD) : (V m c main_v0 : S8192x512.Idx → EReal)
    = shapeCast _ (m ((c : Thread nD τ).loc main_arg0)) shapeCasts_S8192x512x1x1_S8192x512 := by
  show StableHlo.after hostOps0 (fun b => m (c, b)) (Proc.devRef .tc main_v0) = _
  after_results
  rfl

theorem V_root (c : Dev nD) : (V m c main_v1 : S512x512.Idx → EReal) = m ((c : Thread nD τ).loc main_arg2) := by
  show StableHlo.after hostOps0 (fun b => m (c, b)) (Proc.devRef .tc main_v1) = _
  after_results
  rfl

theorem V_branch (c : Dev nD) : (V m c main_v2 : S16x512x512.Idx → EReal) = m ((c : Thread nD τ).loc main_arg5) := by
  show StableHlo.after hostOps0 (fun b => m (c, b)) (Proc.devRef .tc main_v2) = _
  after_results
  rfl

theorem V_child (c : Dev nD) : (V m c main_v3 : S16x17x512.Idx → EReal) = m ((c : Thread nD τ).loc main_arg6) := by
  show StableHlo.after hostOps0 (fun b => m (c, b)) (Proc.devRef .tc main_v3) = _
  after_results
  rfl

/-! ## The two results -/

/-- A 8192 × 256 matrix with one column of zeros appended. -/
def padded (a : S8192x256.Idx → EReal) : S8192x257.Idx → EReal :=
  concatenate S8192x257 1 [⟨S8192x256, a⟩, ⟨S8192x1, broadcastInDim S8192x1 ![] bcast_S_S8192x1 (constant (F := Ideal) S_ .f32 0x00000000#32)⟩]
    concatenates_S8192x256_S8192x1_S8192x257_d1

/-- The class scores of the batch, from the argument arrays. -/
def result (c : Dev nD) : S8192x256.Idx → EReal :=
  scores (R := 8192) (shapeCast _ (m ((c : Thread nD τ).loc main_arg0)) shapeCasts_S8192x512x1x1_S8192x512)
    (m ((c : Thread nD τ).loc main_arg2)) (m ((c : Thread nD τ).loc main_arg5)) (m ((c : Thread nD τ).loc main_arg6))
    (m ((c : Thread nD τ).loc main_arg7))

theorem batchScores_eq (c : Dev nD) : Whole.batchScores m c = result m c := by
  unfold Whole.batchScores result
  rw [V_batch, V_root, V_branch, V_child, V_main_arg7]

/-- The first result after the lines that follow the region. -/
theorem tail_out (c : Dev nD) :
    Pipeline.afterTail₀ cfgs (dats m) 0 (V0 m) [hostOps1] c main_v6 = padded (result m c) := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v4)
      = result m c :=
    (Pipeline.withArrays_arr spec0 launch0.win.arr_inj c _ _ 5).trans ((Whole.final m c).trans (batchScores_eq m c))
  exact congrArg padded e

/-- The second result. -/
theorem tail_zero (c : Dev nD) :
    Pipeline.afterTail₀ cfgs (dats m) 0 (V0 m) [hostOps1] c main_cst_0 = constant (F := Ideal) S_ .f32 0x00000000#32 := by
  unfold Pipeline.afterTail₀
  show StableHlo.after hostOps1 _ (Proc.devRef .tc main_cst_0) = _
  after_results

/-- The run: every weakly fair execution terminates with the two results at these terms and the arguments unchanged. -/
theorem run : θ_run defs (onTc (τ := τ) (main (F := Ideal))) ⟨m, fun _ => 0, ρ⟩ fun r => ∀ c : Dev nD,
      r.2.mem ((c.tc : Thread nD τ).loc main_v6) = padded (result m c)
      ∧ r.2.mem ((c.tc : Thread nD τ).loc main_cst_0) = constant (F := Ideal) S_ .f32 0x00000000#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v6 (Pipeline.mem_restRefs_of main_v6 (by decide) (by decide))).trans (tail_out m c),
      ((h c).2 main_cst_0 (Pipeline.mem_restRefs_of main_cst_0 (by decide) (by decide))).trans (tail_zero m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).1 4).trans (((dats m 0 c).arrAt_in 4 rfl _).trans ((A_eq m c 4).trans (V_main_arg7 m c)))⟩)
    (run_main m ρ)

end Cert.Routed.Run

end
-- ==== Proof.RefScores.lean ====
/-
  The reference computes the same class scores.

  The reference mixes the whole batch by the root weight (a product with the weight transposed), then, for all branches
  at once, forms w2(b, e, ·) · h(n, ·) — the branch weight on the LEFT of the product —, swaps the last two axes, scores
  the 17 children of every branch in one batched product, adds the biases, drops the last child, moves the batch axis to
  the front and flattens (branch, child) into one column 16·b + i.  Read entry by entry this is `Cert.Routed.scores` of
  the batch; the only law used is that a product of two extended reals commutes.
-/
import proofs.«143323_j40157944218107_1_alg».proof.Proof.Gen.ReferenceIdeal.Read
import proofs.«143323_j40157944218107_1_alg».proof.Proof.Spec

noncomputable section

open scoped BigOperators

namespace Cert.Routed.Ref

open Idealize.ShloMosaic Idealize.ShloMosaic.ValueIdx
open Cert.ReferenceIdeal Cert.ReferenceIdeal.Gen Cert.ReferenceIdeal.Read

variable (x0 : (⟨S8192x512x1x1, .f32⟩ : BufTy).Contents (Elt Ideal)) (x2 : (⟨S512x512, .f32⟩ : BufTy).Contents (Elt Ideal))
  (x5 : (⟨S16x512x512, .f32⟩ : BufTy).Contents (Elt Ideal)) (x6 : (⟨S16x17x512, .f32⟩ : BufTy).Contents (Elt Ideal))
  (x7 : (⟨S16x17, .f32⟩ : BufTy).Contents (Elt Ideal))

/-- The root mixing: h(n, d) = Σ_k x(n, k) · w1(d, k). -/
theorem root_entry (n : Fin 8192) (d : Fin 512) :
    val_main_v2 (F := Ideal) x0 x2 (ix2 n d) = ∑ k : Fin 512, val_main_v0 (F := Ideal) x0 (ix2 n k) * x2 (ix2 d k) := by
  rw [val_main_v2_apply]
  refine Finset.sum_congr rfl fun k _ => ?_
  rw [val_main_v1_apply]
  exact congrArg₂ (· * ·)
    (congrArg _ (funext fun a => Fin.ext (by match a with | ⟨0, _⟩ => rfl | ⟨1, _⟩ => rfl)))
    (congrArg _ (funext fun a => Fin.ext (by match a with | ⟨0, _⟩ => rfl | ⟨1, _⟩ => rfl)))

/-- The branch mixing, with the branch weight on the left: at (b, e, n) it is Σ_d w2(b, e, d) · h(n, d). -/
theorem branch_entry (b : Fin 16) (e : Fin 512) (n : Fin 8192) :
    val_main_v8 (F := Ideal) x0 x2 x5 (ix3 b e n) = ∑ d : Fin 512, x5 (ix3 b e d) * val_main_v2 (F := Ideal) x0 x2 (ix2 n d) := by
  rw [val_main_v8_apply]
  refine Finset.sum_congr rfl fun d _ => ?_
  exact congrArg₂ (· * ·)
    (congrArg _ (funext fun a => Fin.ext (by match a with | ⟨0, _⟩ => rfl | ⟨1, _⟩ => rfl | ⟨2, _⟩ => rfl)))
    (congrArg _ (funext fun a => Fin.ext (by match a with | ⟨0, _⟩ => rfl | ⟨1, _⟩ => rfl)))

/-- The children's scores before the bias: at (b, n, i) they are Σ_e g_b(n, e) · wf(b, i, e), g_b read through the swap. -/
theorem child_entry (b : Fin 16) (n : Fin 8192) (i : Fin 17) :
    val_main_v10 (F := Ideal) x0 x2 x5 x6 (ix3 b n i)
      = ∑ e : Fin 512, val_main_v8 (F := Ideal) x0 x2 x5 (ix3 b e n) * x6 (ix3 b i e) := by
  rw [val_main_v10_apply]
  refine Finset.sum_congr rfl fun e _ => ?_
  rw [val_main_v9_apply]
  exact congrArg₂ (· * ·)
    (congrArg _ (funext fun a => Fin.ext (by match a with | ⟨0, _⟩ => rfl | ⟨1, _⟩ => rfl | ⟨2, _⟩ => rfl)))
    (congrArg _ (funext fun a => Fin.ext (by match a with | ⟨0, _⟩ => rfl | ⟨1, _⟩ => rfl | ⟨2, _⟩ => rfl)))

/-- The bias repeated over the batch: at (b, n, i) it is bias(b, i). -/
theorem bias_entry (b : Fin 16) (n : Fin 8192) (i : Fin 17) :
    val_main_v12 (F := Ideal) x7 (ix3 b n i) = x7 (ix2 b i) := by
  rw [val_main_v12_apply, val_main_v11_apply]
  exact congrArg _ (funext fun a => Fin.ext (by match a with | ⟨0, _⟩ => rfl | ⟨1, _⟩ => rfl))

/-- The reference's class scores are `scores` of the reshaped batch and the four weight arrays. -/
theorem ref_scores :
    val_main_v16 (F := Ideal) x0 x2 x5 x6 x7 = scores (val_main_v0 (F := Ideal) x0) x2 x5 x6 x7 := by
  funext j
  have h0 : (j 0).val < 8192 := (j 0).isLt
  have h1 : (j 1).val < 256 := (j 1).isLt
  rw [val_main_v16_apply, val_main_v15_apply, val_main_v14_apply, val_main_v13_apply]
  have hJ : idx_main_v14 (idx_main_v15 (idx_main_v16 j))
      = ix3 (branchOf (j 1).val (idx2_lt1 j)) (⟨(j 0).val, idx2_lt0 j⟩ : Fin 8192) (childOf (j 1).val) :=
    funext fun a => Fin.ext (by
      match a with
      | ⟨0, _⟩ => show ((j 0).val * 256 + (j 1).val) / 16 % 16 = (j 1).val / 16; omega
      | ⟨1, _⟩ => show ((j 0).val * 256 + (j 1).val) / 256 = (j 0).val; omega
      | ⟨2, _⟩ => show ((j 0).val * 256 + (j 1).val) % 16 = (j 1).val % 16; omega)
  rw [hJ, child_entry, bias_entry]
  unfold scores cell
  refine congrArg₂ (· + ·) (Finset.sum_congr rfl fun e _ => congrArg (· * _) ?_) rfl
  rw [branch_entry]
  refine Finset.sum_congr rfl fun d _ => ?_
  rw [root_entry, mul_comm]

end Cert.Routed.Ref

end
-- ==== Proof.lean ====
/-
  The claim: the routed classifier kernel against its plain reference, over the extended reals.

  Both programs compute, for every row of the batch, branch b and child i < 16,
      Σ_e (Σ_d (Σ_k x(k) · w1(d, k)) · w2(b, e, d)) · wf(b, i, e) + bias(b, i)
  at column 16·b + i, append one column of zeros, and return a zero scalar.  The kernel does it 256 rows at a time with
  the weights resident, one branch after the other (Proof/Block.lean: a block; Proof/Whole.lean: the array;
  Proof/KernelRun.lean: the run); the reference does it for all branches at once with batched products and a final
  re-arrangement (Proof/RefScores.lean).  The two sums differ only in the order of the factors of one product, so no
  finiteness of the inputs is needed; the changes of float format the kernel makes are the identity here.  The three
  frames are the generated ones (the reference's is its generated run with the results dropped); the idealization
  rewrote nothing, so nothing is owed for it.
-/
import proofs.«143323_j40157944218107_1_alg».proof.Defs
import proofs.«143323_j40157944218107_1_alg».proof.Proof.Gen.Kernel
import proofs.«143323_j40157944218107_1_alg».proof.Proof.Gen.Kernel.Skeleton
import proofs.«143323_j40157944218107_1_alg».proof.Proof.Gen.Kernel.Launch
import proofs.«143323_j40157944218107_1_alg».proof.Proof.Gen.Kernel.Points
import proofs.«143323_j40157944218107_1_alg».proof.Proof.Gen.Kernel.Frame
import proofs.«143323_j40157944218107_1_alg».proof.Proof.Gen.KernelIdeal
import proofs.«143323_j40157944218107_1_alg».proof.Proof.Gen.KernelIdeal.Skeleton
import proofs.«143323_j40157944218107_1_alg».proof.Proof.Gen.KernelIdeal.Launch
import proofs.«143323_j40157944218107_1_alg».proof.Proof.Gen.KernelIdeal.Points
import proofs.«143323_j40157944218107_1_alg».proof.Proof.Gen.KernelIdeal.Frame
import proofs.«143323_j40157944218107_1_alg».proof.Proof.Gen.ReferenceIdeal
import proofs.«143323_j40157944218107_1_alg».proof.Proof.Gen.ReferenceIdeal.Run
import proofs.«143323_j40157944218107_1_alg».proof.Proof.Gen.ReferenceIdeal.Read
import proofs.«143323_j40157944218107_1_alg».proof.Proof.Gen.Pre_finite_inputs
import proofs.«143323_j40157944218107_1_alg».proof.Proof.Spec
import proofs.«143323_j40157944218107_1_alg».proof.Proof.KernelRun
import proofs.«143323_j40157944218107_1_alg».proof.Proof.RefScores
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- Both runs end with the class scores of the batch, padded by a zero column, and with the zero scalar. -/
theorem algebraic : Cert.algebraic_KernelIdeal_ReferenceIdeal := by
  intro m ρ m' ρ' _ hagree
  refine ⟨fun c => Cert.Routed.Run.padded (Cert.Routed.Run.result m c),
    fun _ => constant (F := Ideal) Cert.KernelIdeal.S_ .f32 0x00000000#32, Cert.Routed.Run.run m ρ, ?_⟩
  refine (θ_run Cert.ReferenceIdeal.defs _ _).mono (fun _ h c => ⟨(h c).1.trans ?_, (h c).2.1, (h c).2.2⟩)
    (Cert.ReferenceIdeal.Value.run (F := Ideal) m' ρ')
  obtain ⟨a0, a1, a2, a3, a4, a5, a6, a7⟩ := hagree c
  rw [a0, a2, a5, a6, a7]
  exact congrArg Cert.Routed.Run.padded (Cert.Routed.Ref.ref_scores
    (m ((c.tc : Thread Cert.KernelIdeal.nD Cert.KernelIdeal.τ).loc Cert.KernelIdeal.main_arg0))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7)))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
